-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x3200000 : Shape := ⟨2, ![2, 3200000]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S16 .f32) (main_arg13 : FVec F S16x1 .f32) (main_arg14 : FVec F S1 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x1 .f32 := Host.absf main_arg13
  let main_cst_22 : FVec F S_ .f32 := constant S_ .f32 0x7F800000#32
  let main_v60 : FVec F S16x1 .f32 := broadcastInDim S16x1 ![] bcast_S_S16x1 main_cst_22
  let main_v61 : IVec S16x1 1 := cmpf .olt main_v59 main_v60
  let main_c_23 : IVec S_ 1 := constantI S_ 1 1#1
  let main_v62 : IVec S_ 1 := (fun x v => Host.reduce IntOp.andi x v reducesTo_S16x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S16x16 .f32) (main_arg9 : FVec F S16 .f32) (main_arg10 : FVec F S16x16 .f32) (main_arg11 : FVec F S16x16 .f32) (main_arg12 : FVec F S16 .f32) (main_arg13 : FVec F S16x1 .f32) (main_arg14 : FVec F S1 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg10
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16x16 .f32 := Host.absf main_arg11
  let main_cst_18 : FVec F S_ .f32 := constant S_ .f32 0x7F800000#32
  let main_v50 : FVec F S16x16 .f32 := broadcastInDim S16x16 ![] bcast_S_S16x16 main_cst_18
  fn_part3 (F := F) main_arg12 main_arg13 main_arg14 main_v48 main_v49 main_v50

def fn_part1 {F : FTy → Type} [FloatOps F] (main_arg5 : FVec F S16x16 .f32) (main_arg6 : FVec F S16 .f32) (main_arg7 : FVec F S16x16 .f32) (main_arg8 : FVec F S16x16 .f32) (main_arg9 : FVec F S16 .f32) (main_arg10 : FVec F S16x16 .f32) (main_arg11 : FVec F S16x16 .f32) (main_arg12 : FVec F S16 .f32) (main_arg13 : FVec F S16x1 .f32) (main_arg14 : FVec F S1 .f32) (main_v13 : IVec S_ 1) (main_v16 : IVec S2x16 1) : IVec S_ 1 :=
  let main_c_5 : IVec S_ 1 := constantI S_ 1 1#1
  let main_v17 : IVec S_ 1 := (fun x v => Host.reduce IntOp.andi x v reducesTo_S2x16_S_d0_1 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x2 .f32) (main_arg1 : IVec S2x3200000 32) (main_arg2 : FVec F S2x16 .f32) (main_arg3 : FVec F S16 .f32) (main_arg4 : FVec F S2x16 .f32) (main_arg5 : FVec F S16x16 .f32) (main_arg6 : FVec F S16 .f32) (main_arg7 : FVec F S16x16 .f32) (main_arg8 : FVec F S16x16 .f32) (main_arg9 : FVec F S16 .f32) (main_arg10 : FVec F S16x16 .f32) (main_arg11 : FVec F S16x16 .f32) (main_arg12 : FVec F S16 .f32) (main_arg13 : FVec F S16x1 .f32) (main_arg14 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x16 .f32 := Host.absf main_arg2
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S2x16 .f32 := Host.absf main_arg4
  let main_cst_4 : FVec F S_ .f32 := constant S_ .f32 0x7F800000#32
  let main_v15 : FVec F S2x16 .f32 := broadcastInDim S2x16 ![] bcast_S_S2x16 main_cst_4
  let main_v16 : IVec S2x16 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x2 : Shape := ⟨2, ![100000, 2]⟩
abbrev S2x3200000 : Shape := ⟨2, ![2, 3200000]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x2 : Shape := ⟨2, ![3200000, 2]⟩
abbrev S1x16 : Shape := ⟨2, ![1, 16]⟩
abbrev S100000x16 : Shape := ⟨2, ![100000, 16]⟩
abbrev S5000x2 : Shape := ⟨2, ![5000, 2]⟩
abbrev S5000x16 : Shape := ⟨2, ![5000, 16]⟩
abbrev S3200000x16 : Shape := ⟨2, ![3200000, 16]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 67
  | .vmem => 35
  | .smem => 0
  | _ => 0

abbrev bufTy : (tb : Table) → Fin (tcTables nBuf tb) → BufTy
  | .hbm, ⟨0, _⟩ => ⟨S100000x2, .f32⟩
  | .hbm, ⟨1, _⟩ => ⟨S2x3200000, .i32⟩
  | .hbm, ⟨2, _⟩ => ⟨S2x16, .f32⟩
  | .hbm, ⟨3, _⟩ => ⟨S16, .f32⟩
  | .hbm, ⟨4, _⟩ => ⟨S2x16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16x16, .f32⟩
  | .hbm, ⟨12, _⟩ => ⟨S16, .f32⟩
  | .hbm, ⟨13, _⟩ => ⟨S16x1, .f32⟩
  | .hbm, ⟨14, _⟩ => ⟨S1, .f32⟩
  | .hbm, ⟨15, _⟩ => ⟨S1x3200000, .i32⟩
  | .hbm, ⟨16, _⟩ => ⟨S3200000, .i32⟩
  | .hbm, ⟨17, _⟩ => ⟨S1x3200000, .i32⟩
  | .hbm, ⟨18, _⟩ => ⟨S3200000, .i32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x2, .f32⟩
  | .hbm, ⟨28, _⟩ => ⟨S_, .f32⟩
  | .hbm, ⟨29, _⟩ => ⟨S100000x2, .f32⟩
  | .hbm, ⟨30, _⟩ => ⟨S3200000x1, .i32⟩
  | .hbm, ⟨31, _⟩ => ⟨S100000x2, .f32⟩
  | .hbm, ⟨32, _⟩ => ⟨S1x16, .f32⟩
  | .hbm, ⟨33, _⟩ => ⟨S100000x16, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x16, .f32⟩
  | .hbm, ⟨43, _⟩ => ⟨S_, .f32⟩
  | .hbm, ⟨44, _⟩ => ⟨S100000x16, .f32⟩
  | .hbm, ⟨45, _⟩ => ⟨S3200000x1, .i32⟩
  | .hbm, ⟨46, _⟩ => ⟨S100000x16, .f32⟩
  | .hbm, ⟨47, _⟩ => ⟨S1x16, .f32⟩
  | .hbm, ⟨48, _⟩ => ⟨S100000x16, .f32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S3200000x16, .f32⟩
  | .hbm, ⟨58, _⟩ => ⟨S_, .f32⟩
  | .hbm, ⟨59, _⟩ => ⟨S100000x16, .f32⟩
  | .hbm, ⟨60, _⟩ => ⟨S3200000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S1x16, .f32⟩
  | .hbm, ⟨65, _⟩ => ⟨S1x1, .f32⟩
  | .hbm, ⟨66, _⟩ => ⟨S100000x1, .f32⟩
  | .local _ .vmem, ⟨0, _⟩ => ⟨S5000x2, .f32⟩
  | .local _ .vmem, ⟨1, _⟩ => ⟨S5000x2, .f32⟩
  | .local _ .vmem, ⟨2, _⟩ => ⟨S5000x2, .f32⟩
  | .local _ .vmem, ⟨3, _⟩ => ⟨S5000x2, .f32⟩
  | .local _ .vmem, ⟨4, _⟩ => ⟨S2x16, .f32⟩
  | .local _ .vmem, ⟨5, _⟩ => ⟨S1x16, .f32⟩
  | .local _ .vmem, ⟨6, _⟩ => ⟨S2x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16x16, .f32⟩
  | .local _ .vmem, ⟨14, _⟩ => ⟨S1x16, .f32⟩
  | .local _ .vmem, ⟨15, _⟩ => ⟨S16x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S16x16, .f32⟩
  | .local _ .vmem, ⟨23, _⟩ => ⟨S1x16, .f32⟩
  | .local _ .vmem, ⟨24, _⟩ => ⟨S16x16, .f32⟩
  | .local _ .vmem, ⟨25, _⟩ => ⟨S5000x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S16x16, .f32⟩
  | .local _ .vmem, ⟨30, _⟩ => ⟨S1x16, .f32⟩
  | .local _ .vmem, ⟨31, _⟩ => ⟨S16x1, .f32⟩
  | .local _ .vmem, ⟨32, _⟩ => ⟨S1x1, .f32⟩
  | .local _ .vmem, ⟨33, _⟩ => ⟨S5000x1, .f32⟩
  | .local _ .vmem, ⟨34, _⟩ => ⟨S5000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x2 : S_.BroadcastsInDim S100000x2 (![] : Fin 0 → Fin S100000x2.rank)
  shapeCasts_S16_S1x16 : S16.ShapeCasts S1x16
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  bitsLt_bf16_f32 : FTy.bits .bf16 < FTy.bits .f32
  inb_S2x16_S2x16_0_0 : ∀ a, (![0, 0] : Fin 2 → Nat) a + S2x16.size a ≤ S2x16.size a
  h_S2x16 : 0 < S2x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S5000x2_S2x16_S5000x16_1_0_0_1_n_n_wf : DotDims.WF S5000x2 S2x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x16_S5000x16_1_0_0_1_n_n_wf : DotDims.WF S5000x16 S16x16 S5000x16 [1] [0] [0] [1] [] []
  dot_S5000x16_S16x1_S5000x1_1_0_0_1_n_n_wf : DotDims.WF S5000x16 S16x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S100000x2.size a
  hwx0_0 : ∀ i : grid0.Coords, EltTy.bits .f32 = 32 ∨ (Rect.block (s := S100000x2) S5000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S100000x2.size a
  hwx0_1 : ∀ i : grid0.Coords, EltTy.bits .f32 = 32 ∨ (Rect.block (s := S100000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x16.size a ≤ S2x16.size a
  hwx0_2 : ∀ i : grid0.Coords, EltTy.bits .f32 = 32 ∨ (Rect.block (s := S2x16) S2x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x16.size a ≤ S2x16.size a
  hwx0_4 : ∀ i : grid0.Coords, EltTy.bits .f32 = 32 ∨ (Rect.block (s := S2x16) S2x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x16.size a ≤ S16x16.size a
  hwx2_4 : ∀ i : grid2.Coords, EltTy.bits .f32 = 32 ∨ (Rect.block (s := S16x16) S16x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x16.size a ≤ S16x16.size a
  hwx3_1 : ∀ i : grid3.Coords, EltTy.bits .f32 = 32 ∨ (Rect.block (s := S16x16) S16x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x1.size a ≤ S16x1.size a
  hwx3_3 : ∀ i : grid3.Coords, EltTy.bits .f32 = 32 ∨ (Rect.block (s := S16x1) S16x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)

variable [Facts₀]

def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S5000x2_S2x16_S5000x16_1_0_0_1_n_n : DotDims S5000x2 S2x16 S5000x16 where
  lhsContracting := [1]
  rhsContracting := [0]
  lhsNonContracting := [0]
  rhsNonContracting := [1]
  lhsBatch := []
  rhsBatch := []
  wf := dot_S5000x2_S2x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf

abbrev win0_0 : Pipeline.Window sig grid0 :=
  Pipeline.Window.ofSpec (Memref.whole main_v13) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S16x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S16x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S16x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S5000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x2 : Shape := ⟨2, ![100000, 2]⟩
abbrev S2x3200000 : Shape := ⟨2, ![2, 3200000]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x2 : Shape := ⟨2, ![3200000, 2]⟩
abbrev S100000x16 : Shape := ⟨2, ![100000, 16]⟩
abbrev S1x16 : Shape := ⟨2, ![1, 16]⟩
abbrev S3200000x16 : Shape := ⟨2, ![3200000, 16]⟩
abbrev S100000x1 : Shape := ⟨2, ![100000, 1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x3200000, .i32⟩
  | .hbm, ⟨2, _⟩ => ⟨S2x16, .f32⟩
  | .hbm, ⟨3, _⟩ => ⟨S16, .f32⟩
  | .hbm, ⟨4, _⟩ => ⟨S2x16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16x16, .f32⟩
  | .hbm, ⟨12, _⟩ => ⟨S16, .f32⟩
  | .hbm, ⟨13, _⟩ => ⟨S16x1, .f32⟩
  | .hbm, ⟨14, _⟩ => ⟨S1, .f32⟩
  | .hbm, ⟨15, _⟩ => ⟨S1x3200000, .i32⟩
  | .hbm, ⟨16, _⟩ => ⟨S3200000, .i32⟩
  | .hbm, ⟨17, _⟩ => ⟨S1x3200000, .i32⟩
  | .hbm, ⟨18, _⟩ => ⟨S3200000, .i32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x2, .f32⟩
  | .hbm, ⟨28, _⟩ => ⟨S_, .f32⟩
  | .hbm, ⟨29, _⟩ => ⟨S100000x2, .f32⟩
  | .hbm, ⟨30, _⟩ => ⟨S3200000x1, .i32⟩
  | .hbm, ⟨31, _⟩ => ⟨S100000x2, .f32⟩
  | .hbm, ⟨32, _⟩ => ⟨S100000x16, .f32⟩
  | .hbm, ⟨33, _⟩ => ⟨S1x16, .f32⟩
  | .hbm, ⟨34, _⟩ => ⟨S100000x16, .f32⟩
  | .hbm, ⟨35, _⟩ => ⟨S100000x16, .f32⟩
  | .hbm, ⟨36, _⟩ => ⟨S100000x16, .f32⟩
  | .hbm, ⟨37, _⟩ => ⟨S100000x16, .f32⟩
  | .hbm, ⟨38, _⟩ => ⟨S_, .f32⟩
  | .hbm, ⟨39, _⟩ => ⟨S100000x16, .f32⟩
  | .hbm, ⟨40, _⟩ => ⟨S100000x16, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x16, .f32⟩
  | .hbm, ⟨50, _⟩ => ⟨S_, .f32⟩
  | .hbm, ⟨51, _⟩ => ⟨S100000x16, .f32⟩
  | .hbm, ⟨52, _⟩ => ⟨S3200000x1, .i32⟩
  | .hbm, ⟨53, _⟩ => ⟨S100000x16, .f32⟩
  | .hbm, ⟨54, _⟩ => ⟨S100000x16, .f32⟩
  | .hbm, ⟨55, _⟩ => ⟨S1x16, .f32⟩
  | .hbm, ⟨56, _⟩ => ⟨S100000x16, .f32⟩
  | .hbm, ⟨57, _⟩ => ⟨S100000x16, .f32⟩
  | .hbm, ⟨58, _⟩ => ⟨S100000x16, .f32⟩
  | .hbm, ⟨59, _⟩ => ⟨S100000x16, .f32⟩
  | .hbm, ⟨60, _⟩ => ⟨S_, .f32⟩
  | .hbm, ⟨61, _⟩ => ⟨S100000x16, .f32⟩
  | .hbm, ⟨62, _⟩ => ⟨S100000x16, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000x16, .f32⟩
  | .hbm, ⟨72, _⟩ => ⟨S_, .f32⟩
  | .hbm, ⟨73, _⟩ => ⟨S100000x16, .f32⟩
  | .hbm, ⟨74, _⟩ => ⟨S3200000x1, .i32⟩
  | .hbm, ⟨75, _⟩ => ⟨S100000x16, .f32⟩
  | .hbm, ⟨76, _⟩ => ⟨S100000x16, .f32⟩
  | .hbm, ⟨77, _⟩ => ⟨S1x16, .f32⟩
  | .hbm, ⟨78, _⟩ => ⟨S100000x16, .f32⟩
  | .hbm, ⟨79, _⟩ => ⟨S100000x16, .f32⟩
  | .hbm, ⟨80, _⟩ => ⟨S100000x16, .f32⟩
  | .hbm, ⟨81, _⟩ => ⟨S100000x16, .f32⟩
  | .hbm, ⟨82, _⟩ => ⟨S_, .f32⟩
  | .hbm, ⟨83, _⟩ => ⟨S100000x16, .f32⟩
  | .hbm, ⟨84, _⟩ => ⟨S100000x16, .f32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | .hbm, ⟨89, _⟩ => ⟨S_, .f32⟩
  | .hbm, ⟨90, _⟩ => ⟨S100000x16, .f32⟩
  | .hbm, ⟨91, _⟩ => ⟨S100000x16, .f32⟩
  | .hbm, ⟨92, _⟩ => ⟨S100000x1, .f32⟩
  | .hbm, ⟨93, _⟩ => ⟨S1x1, .f32⟩
  | .hbm, ⟨94, _⟩ => ⟨S100000x1, .f32⟩
  | .hbm, ⟨95, _⟩ => ⟨S100000x1, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_v20 : Ref sig .tc := ⟨.hbm, 40, rfl⟩
abbrev main_c_1 : Ref sig .tc := ⟨.hbm, 41, rfl⟩
abbrev main_v21 : Ref sig .tc := ⟨.hbm, 42, rfl⟩
abbrev main_v22 : Ref sig .tc := ⟨.hbm, 43, rfl⟩
abbrev main_c_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_c_4 : Ref sig .tc := ⟨.hbm, 63, rfl⟩
abbrev main_v38 : Ref sig .tc := ⟨.hbm, 64, rfl⟩
abbrev main_v39 : Ref sig .tc := ⟨.hbm, 65, rfl⟩
abbrev main_c_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_cst : Ref sig .tc := ⟨.hbm, 82, rfl⟩
abbrev main_call2_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call3_cst : Ref sig .tc := ⟨.hbm, 89, rfl⟩
abbrev main_call3_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x2 : S_.BroadcastsInDim S100000x2 (![] : Fin 0 → Fin S100000x2.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S100000x2_S2x16_S100000x16_1_0_0_1_n_n_wf : DotDims.WF S100000x2 S2x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x1_S100000x1_1_0_0_1_n_n_wf : DotDims.WF S100000x16 S16x1 S100000x1 [1] [0] [0] [1] [] []

variable [Facts₀]

def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.ValueRun.lean ====
/-
  The kernel program's run with its two results named.

  The program is eight segments: four stretches of host operations and four pipelined regions.  The buffer contents
  at the segment boundaries are a fold from the launch memory (a stretch applies its operations; a region replaces its
  arrays by what its write-backs leave), and the last of them, `W8`, is what every unscoped buffer holds when the
  program returns.  The frame reads only the argument arrays off that last state; here the two result arrays are
  read off it as well: every weakly fair execution terminates with the result buffers at `W8`'s contents and the
  arguments unchanged.
-/
import proofs.«176941_j81990925680800_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two result buffers at the last boundary's
    contents and the argument arrays as launched. -/
theorem run : θ_run defs (onTc (τ := τ) (main (F := F))) ⟨m, fun _ => 0, ρ⟩ (fun r => ∀ c : Dev nD,
      r.2.mem ((c.tc : Thread nD τ).loc main_v39) = W8 m ρ c (Proc.devRef .tc main_v39)
      ∧ r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v39 (by decide)),
       h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.ValueRun

end
-- ==== Proof.LibRegionAsOp.lean ====
/-
  A pipelined region seen from outside is one operation on the core's buffers.

  When a region returns, the core's buffer contents are the entry contents with each of the region's arrays
  replaced by what the pipeline leaves in it (`Pipeline.withArrays`).  If every array but one ends as it was
  entered (the input windows) and the remaining one ends at the value some operation `op` — one that writes
  exactly that array's buffer — computes from the entry contents, then the region's effect on the whole
  valuation IS `op.result`.  A program that alternates host operations and such regions is then, as far as
  buffer contents go, a straight line of operations, and the contents after it are `StableHlo.after` of that
  line.  Also: the fold over a concatenation of two lines is the fold over the second after the first.
-/
import Idealize.ShloMosaic.Lib.Pipeline.FrameSuffix
import Idealize.ShloMosaic.Lib.StableHlo.Run

noncomputable section

namespace Cert.Lib

open Idealize.ShloMosaic Idealize.ShloMosaic.TcCoe Idealize.ShloMosaic.Pipeline

variable {nD : Nat} {τ : Topo} {sig : RefSig} {Val : EltTy → Type}

/-- The region's exit contents are one operation's result of its entry contents: the operation writes exactly
    the buffer of array `wo` (`hw`), the pipeline leaves in that array the operation's value (`hout`), and
    every other array of the region ends holding its entry contents (`hin`). -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val) (wo : Fin W)
    (hw : op.writes = {Proc.devRef .tc (arrRef win wo)})
    (hout : A wo = op.result V (Proc.devRef .tc (arrRef win wo)))
    (hin : ∀ w, w ≠ wo → A w = V (Proc.devRef .tc (arrRef win w))) :
    withArrays win c V A = op.result V := by
  funext b
  by_cases h : ∃ w, Proc.devRef (τ := τ) .tc (arrRef win w) = b
  · obtain ⟨w, rfl⟩ := h
    rw [withArrays_arr win hinj]
    by_cases hwo : w = wo
    · subst hwo; exact hout
    · rw [hin w hwo, op.result_of_not_mem V]
      rw [hw, Finset.mem_singleton]
      exact fun e => hwo (hinj (Proc.devRef_injective _ e))
  · have hb : b ∉ op.writes := by
      rw [hw, Finset.mem_singleton]
      exact fun e => h ⟨wo, e.symm⟩
    rw [op.result_of_not_mem V hb]
    unfold withArrays
    rw [dif_neg h]

/-- The contents after two lines run one after the other. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- One operation as a line. -/
theorem after_singleton (op : HloOp τ sig Val) (V : Valuation τ sig Val) :
    StableHlo.after [op] V = op.result V := rfl

end Cert.Lib

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«176941_j81990925680800_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.LibLayers.lean ====
/-
  General definitions and lemmas: the layers of a graph convolution, as functions of whole arrays of extended reals.

  A layer multiplies the features by a weight matrix, multiplies the adjacency matrix by the result and adds a
  bias to every row: `A · (H · W) + b`.  Between layers every entry is replaced by its maximum with zero.
  All of it is row-wise in the adjacency matrix: row `r` of the result depends on `A` only through row `r` of `A`.
  So any selection of rows of `A` (a block of consecutive rows, in particular) gives the same selection of rows of
  the result — which is what lets a result computed block of rows by block of rows be read as one array.
-/
import Idealize.ShloMosaic.Lib.Pipeline.Value
import Idealize.ShloMosaic.Lib.ValueIdx
import proofs.«176941_j81990925680800_2_alg».proof.Proof.LibMatmulRead

open scoped BigOperators

noncomputable section

namespace Cert.Layers

open Idealize.ShloMosaic Idealize.ShloMosaic.ValueIdx Cert.GCN

/-- A one-axis array of extended reals. -/
abbrev Row (p : Nat) := (⟨1, ![p]⟩ : Shape).Idx → EReal

/-- A vector laid out as the single row of a `[1, p]` array. -/
def asRow {p : Nat} (b : Row p) : Arr 1 p := fun i => b (ix1 (i 1))

/-- A one-row array added to every row. -/
def addRow {n p : Nat} (X : Arr n p) (b : Arr 1 p) : Arr n p := fun i => X i + b (ix2 (0 : Fin 1) (i 1))

/-- Every entry replaced by its maximum with zero. -/
def relu {n p : Nat} (X : Arr n p) : Arr n p := fun i => max (X i) 0

theorem addRow_apply {n p : Nat} (X : Arr n p) (b : Arr 1 p) (r : Fin n) (c : Fin p) :
    addRow X b (ix2 r c) = X (ix2 r c) + b (ix2 (0 : Fin 1) c) := rfl

theorem relu_apply {n p : Nat} (X : Arr n p) (r : Fin n) (c : Fin p) : relu X (ix2 r c) = max (X (ix2 r c)) 0 := rfl

/-- The features handed to the next layer: `max (A · S + b, 0) · W`, where `S` is the previous product. -/
def hidden {n k q p : Nat} (A : Arr n k) (S : Arr k q) (b : Arr 1 q) (W : Arr q p) : Arr n p :=
  mm (relu (addRow (mm A S) b)) W

/-- The last layer's result: `A · S + b`. -/
def affine {n k p : Nat} (A : Arr n k) (S : Arr k p) (b : Arr 1 p) : Arr n p := addRow (mm A S) b

/-! ## Rows of the result come from the same rows of the left factor -/

section Rows

variable {N n : Nat} (f : Fin n → Fin N)

theorem mm_rows {k p : Nat} (A : Arr N k) (A' : Arr n k) (B : Arr k p)
    (h : ∀ r d, A' (ix2 r d) = A (ix2 (f r) d)) (r : Fin n) (c : Fin p) :
    mm A' B (ix2 r c) = mm A B (ix2 (f r) c) := by
  rw [mm_apply, mm_apply]
  exact Finset.sum_congr rfl fun d _ => by rw [h r d]

theorem addRow_rows {p : Nat} (X : Arr N p) (X' : Arr n p) (b : Arr 1 p)
    (h : ∀ r c, X' (ix2 r c) = X (ix2 (f r) c)) (r : Fin n) (c : Fin p) :
    addRow X' b (ix2 r c) = addRow X b (ix2 (f r) c) := by
  rw [addRow_apply, addRow_apply, h r c]

theorem relu_rows {p : Nat} (X : Arr N p) (X' : Arr n p)
    (h : ∀ r c, X' (ix2 r c) = X (ix2 (f r) c)) (r : Fin n) (c : Fin p) :
    relu X' (ix2 r c) = relu X (ix2 (f r) c) := by
  rw [relu_apply, relu_apply, h r c]

theorem hidden_rows {k q p : Nat} (A : Arr N k) (A' : Arr n k) (S : Arr k q) (b : Arr 1 q) (W : Arr q p)
    (h : ∀ r d, A' (ix2 r d) = A (ix2 (f r) d)) (r : Fin n) (c : Fin p) :
    hidden A' S b W (ix2 r c) = hidden A S b W (ix2 (f r) c) :=
  mm_rows f _ _ W (relu_rows f _ _ (addRow_rows f _ _ b (mm_rows f A A' S h))) r c

theorem affine_rows {k p : Nat} (A : Arr N k) (A' : Arr n k) (S : Arr k p) (b : Arr 1 p)
    (h : ∀ r d, A' (ix2 r d) = A (ix2 (f r) d)) (r : Fin n) (c : Fin p) :
    affine A' S b (ix2 r c) = affine A S b (ix2 (f r) c) :=
  addRow_rows f _ _ b (mm_rows f A A' S h) r c

end Rows

/-! ## A one-row array spread over all rows, read at an entry -/

/-- A `[1, b]` array broadcast to `[a, b]` reads, at `(i, j)`, its only row at `j`. -/
theorem broadcastTo_row_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.Layers

end
-- ==== Proof.LibLayerOps.lean ====
/-
  General lemmas: the operations of a dense layer, as a kernel body and as the host spell them, read as whole
  arrays at the ideal values.

  In a kernel body: a plain matrix product into the zero accumulator is the matrix product; adding a one-row array
  spread over the rows adds that row to every row; the maximum with the zero splat is the maximum with zero.
  On the host: a plain `dot_general` is the matrix product; a bias vector is added to every row by broadcasting it
  first to one row and then over all rows; the maximum with zero is taken against a broadcast scalar zero; and a
  vector reshaped to one row is that vector as a row.
-/
import Idealize.ShloMosaic.Lib.Pipeline.Value
import Idealize.ShloMosaic.Lib.ValueIdx
import Idealize.ShloMosaic.PureOps.Ideal.Laws
import proofs.«176941_j81990925680800_2_alg».proof.Proof.LibLayers

noncomputable section

namespace Cert.LayerOps

open Idealize.ShloMosaic Idealize.ShloMosaic.ValueIdx Cert.GCN Cert.Layers

/-- A plain matrix product into the zero accumulator is the product of its operands, as whole arrays. -/
theorem matmul_zero_eq_mm {M K N : Nat} {φ₁ φ₂ : FTy} (prec : Option ContractPrecision)
    (l : FVec Ideal ⟨2, ![M, K]⟩ φ₁) (w : FVec Ideal ⟨2, ![K, N]⟩ φ₂) :
    (FloatOps.matmul (DotDims.plain M K N) prec l w (constant ⟨2, ![M, N]⟩ .f32 0x00000000#32) : Arr M N) = mm l w := by
  funext i
  rw [eq_ix2 i]
  exact matmul_plain_zero_apply prec l w (i 0) (i 1)

/-- Adding a one-row array spread over the rows adds that row to every row. -/
theorem addf_row {a b : Nat} (X : FVec Ideal ⟨2, ![a, b]⟩ .f32) (v : FVec Ideal ⟨2, ![1, b]⟩ .f32)
    (h : (⟨2, ![1, b]⟩ : Shape).Broadcasts ⟨2, ![a, b]⟩) :
    (addf X (broadcastTo ⟨2, ![a, b]⟩ v h) : Arr a b) = addRow X v := by
  funext i
  rw [eq_ix2 i]
  exact congrArg (X (ix2 (i 0) (i 1)) + ·) (broadcastTo_row_apply v h (i 0) (i 1))

/-- The maximum with the zero splat is the maximum with zero. -/
theorem maximumf_zero {a b : Nat} (X : FVec Ideal ⟨2, ![a, b]⟩ .f32) :
    (maximumf X (broadcast ⟨2, ![a, b]⟩ (Scalar.ofBits (F := Ideal) .f32 0x00000000#32)) : Arr a b) = relu X := by
  funext i
  show max (X i) (Ideal.ofBits .f32 0x00000000#32) = max (X i) 0
  rw [Ideal.ofBits_zero_f32]

end Cert.LayerOps

namespace Cert.HostLayers

open Idealize.ShloMosaic Idealize.ShloMosaic.ValueIdx Cert.GCN Cert.Layers

/-- A plain `dot_general` on the host is the matrix product of its operands. -/
theorem hostDot_plain {M K N : Nat} (D : DotDims ⟨2, ![M, K]⟩ ⟨2, ![K, N]⟩ ⟨2, ![M, N]⟩) (hD : D = DotDims.plain M K N)
    (prec : Option ContractPrecision) (l : FVec Ideal ⟨2, ![M, K]⟩ .f32) (w : FVec Ideal ⟨2, ![K, N]⟩ .f32) :
    (Host.dotGeneral D prec l w : Arr M N) = mm l w := by
  subst hD
  exact hostDot_eq_mm prec .single l w

/-- A vector broadcast to one row and then over all rows reads, at `(r, c)`, the vector at `c`. -/
theorem bias_apply {n p : Nat} (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) (r : Fin n) (c : Fin p) :
    broadcastInDim ⟨2, ![n, p]⟩ ![0, 1] h2 (broadcastInDim ⟨2, ![1, p]⟩ ![1] h1 b) (ix2 r c) = b (ix1 c) := by
  refine (broadcastInDim_apply ![0, 1] h2 _ (ix2 r c) (ix2 (0 : Fin 1) c) fun a => ?_).trans ?_
  · match a with
    | ⟨0, _⟩ => rfl
    | ⟨1, _⟩ =>
      show c.val = if p = 1 then 0 else c.val
      split
      · have := c.isLt; omega
      · rfl
  · refine broadcastInDim_apply ![1] h1 b (ix2 (0 : Fin 1) c) (ix1 c) fun a => ?_
    match a with
    | ⟨0, _⟩ =>
      show c.val = if p = 1 then 0 else c.val
      split
      · have := c.isLt; omega
      · rfl

/-- Adding that broadcast to an array adds the vector, as a row, to every row. -/
theorem host_addRow {n p : Nat} (X : FVec Ideal ⟨2, ![n, p]⟩ .f32) (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) :
    (addf X (broadcastInDim ⟨2, ![n, p]⟩ ![0, 1] h2 (broadcastInDim ⟨2, ![1, p]⟩ ![1] h1 b)) : Arr n p)
      = addRow X (asRow b) := by
  funext i
  rw [eq_ix2 i]
  exact congrArg (X (ix2 (i 0) (i 1)) + ·) (bias_apply b h1 h2 (i 0) (i 1))

/-- The maximum with the broadcast scalar zero is the maximum with zero. -/
theorem host_relu {n p : Nat} (X : FVec Ideal ⟨2, ![n, p]⟩ .f32)
    (h : (⟨0, ![]⟩ : Shape).BroadcastsInDim ⟨2, ![n, p]⟩ ![]) :
    (maximumf X (broadcastInDim ⟨2, ![n, p]⟩ ![] h (constant (F := Ideal) ⟨0, ![]⟩ .f32 0x00000000#32)) : Arr n p) = relu X := by
  funext i
  show max (X i) (broadcastInDim ⟨2, ![n, p]⟩ ![] h (constant (F := Ideal) ⟨0, ![]⟩ .f32 0x00000000#32) i) = max (X i) 0
  rw [broadcastInDim_apply ![] h _ i ix0 (fun a => a.elim0)]
  show max (X i) (Ideal.ofBits .f32 0x00000000#32) = _
  rw [Ideal.ofBits_zero_f32]

/-- A vector reshaped to one row is that vector as a row. -/
theorem reshape_asRow {p : Nat} (b : FVec Ideal ⟨1, ![p]⟩ .f32) (h : (⟨1, ![p]⟩ : Shape).ShapeCasts ⟨2, ![1, p]⟩) :
    (shapeCast ⟨2, ![1, p]⟩ b h : Arr 1 p) = asRow b := by
  funext i
  have h0 : (i 0).val < 1 := (i 0).isLt
  refine shapeCast_apply b h i (ix1 (i 1)) ?_
  rw [Shape.rowMajor_val_two, Shape.rowMajor_val_one]
  show (i 1).val = (i 0).val * p + (i 1).val
  have : (i 0).val = 0 := by omega
  rw [this, Nat.zero_mul, Nat.zero_add]

end Cert.HostLayers

end
-- ==== Proof.Conv.lean ====
/-
  One graph-convolution layer and the dense head, as functions of whole arrays of extended reals.

  A layer takes the aggregated neighbour features `A` and the node's own features `X` (both one row per node), two
  weight matrices and a bias row, and returns `max (A · Wr + X · Wo + b, 0)`, every row of the sum shifted by the same
  bias row.  The sum of the three terms can be taken in either order: the extended reals are a commutative monoid
  under addition, so `(A · Wr + X · Wo) + b` and `(A · Wr + b) + X · Wo` are the same entry by entry, with no
  finiteness needed.  The head is two dense layers, `max (H · W1 + b1, 0) · W2 + b2`.

  Both are row-wise in the per-node operands: row `r` of the result depends on `A`, `X` (or `H`) only through their
  row `r`.  So a block of consecutive rows of the result is the same function of the same block of rows of the
  per-node operands, which is how a result computed block of rows by block of rows reads as one array.
-/
import proofs.«176941_j81990925680800_2_alg».proof.Proof.LibLayers

open scoped BigOperators

noncomputable section

namespace Cert.Conv

open Idealize.ShloMosaic Idealize.ShloMosaic.ValueIdx Cert.GCN Cert.Layers

/-- Two arrays added entry by entry. -/
def add2 {n p : Nat} (X Y : Arr n p) : Arr n p := fun i => X i + Y i

theorem add2_apply {n p : Nat} (X Y : Arr n p) (r : Fin n) (c : Fin p) :
    add2 X Y (ix2 r c) = X (ix2 r c) + Y (ix2 r c) := rfl

/-- The layer with the bias added last: `max ((A · Wr + X · Wo) + b, 0)`. -/
def conv {n k p : Nat} (A X : Arr n k) (Wr : Arr k p) (b : Arr 1 p) (Wo : Arr k p) : Arr n p :=
  relu (addRow (add2 (mm A Wr) (mm X Wo)) b)

/-- The layer with the bias added to the neighbours' term first: `max ((A · Wr + b) + X · Wo, 0)`. -/
def convBiasFirst {n k p : Nat} (A X : Arr n k) (Wr : Arr k p) (b : Arr 1 p) (Wo : Arr k p) : Arr n p :=
  relu (add2 (addRow (mm A Wr) b) (mm X Wo))

/-- The two orders of the three-term sum agree: addition of extended reals is commutative and associative. -/
theorem conv_eq_convBiasFirst {n k p : Nat} (A X : Arr n k) (Wr : Arr k p) (b : Arr 1 p) (Wo : Arr k p) :
    conv A X Wr b Wo = convBiasFirst A X Wr b Wo := by
  funext i
  show max (mm A Wr i + mm X Wo i + b (ix2 (0 : Fin 1) (i 1))) 0 = max (mm A Wr i + b (ix2 (0 : Fin 1) (i 1)) + mm X Wo i) 0
  rw [add_right_comm]

/-- The head: `max (H · W1 + b1, 0) · W2 + b2`. -/
def head {n k q p : Nat} (H : Arr n k) (W1 : Arr k q) (b1 : Arr 1 q) (W2 : Arr q p) (b2 : Arr 1 p) : Arr n p :=
  addRow (hidden H W1 b1 W2) b2

/-! ## Rows of the result come from the same rows of the per-node operands -/

section Rows

variable {N n : Nat} (f : Fin n → Fin N)

theorem add2_rows {p : Nat} (X Y : Arr N p) (X' Y' : Arr n p)
    (hX : ∀ r c, X' (ix2 r c) = X (ix2 (f r) c)) (hY : ∀ r c, Y' (ix2 r c) = Y (ix2 (f r) c)) (r : Fin n) (c : Fin p) :
    add2 X' Y' (ix2 r c) = add2 X Y (ix2 (f r) c) := by
  rw [add2_apply, add2_apply, hX r c, hY r c]

theorem conv_rows {k p : Nat} (A X : Arr N k) (A' X' : Arr n k) (Wr : Arr k p) (b : Arr 1 p) (Wo : Arr k p)
    (hA : ∀ r d, A' (ix2 r d) = A (ix2 (f r) d)) (hX : ∀ r d, X' (ix2 r d) = X (ix2 (f r) d)) (r : Fin n) (c : Fin p) :
    conv A' X' Wr b Wo (ix2 r c) = conv A X Wr b Wo (ix2 (f r) c) :=
  relu_rows f _ _ (addRow_rows f _ _ b (add2_rows f _ _ _ _ (mm_rows f A A' Wr hA) (mm_rows f X X' Wo hX))) r c

theorem head_rows {k q p : Nat} (H : Arr N k) (H' : Arr n k) (W1 : Arr k q) (b1 : Arr 1 q) (W2 : Arr q p) (b2 : Arr 1 p)
    (hH : ∀ r d, H' (ix2 r d) = H (ix2 (f r) d)) (r : Fin n) (c : Fin p) :
    head H' W1 b1 W2 b2 (ix2 r c) = head H W1 b1 W2 b2 (ix2 (f r) c) :=
  addRow_rows f _ _ b2 (hidden_rows f H H' W1 b1 W2 hH) r c

end Rows

end Cert.Conv

end
-- ==== Proof.Body.lean ====
/-
  The four kernel bodies, each as one function of its loaded blocks, at the ideal values.

  A body narrows its operands to a shorter float format before each matrix product; at the ideal values a change of
  format is the identity, a matrix product into the zero accumulator is the plain product, adding a one-row block spread
  over the rows adds that row to every row, and the maximum with the zero splat is the maximum with zero.  So the three
  convolution bodies are the layer `Conv.conv` of their blocks and the last body is the head `Conv.head`.
-/
import proofs.«176941_j81990925680800_2_alg».proof.Proof.Gen.KernelIdeal.Skeleton
import proofs.«176941_j81990925680800_2_alg».proof.Proof.LibLayerOps
import proofs.«176941_j81990925680800_2_alg».proof.Proof.Conv

noncomputable section

namespace Cert.KernelIdeal.Body

open Idealize.ShloMosaic Idealize.ShloMosaic.ValueIdx Cert.GCN Cert.Layers Cert.Conv Cert.LayerOps
open Cert.KernelIdeal Cert.KernelIdeal.Gen

/-- The first layer's body (two input features): the layer of its blocks. -/
theorem pay0_eq (a x : Vec Ideal S5000x2 .f32) (wr wo : Vec Ideal S2x16 .f32) (b : Vec Ideal S1x16 .f32) :
    (k0_pay1 (F := Ideal) a x wr wo b : Arr 5000 16) = conv (a : Arr 5000 2) x wr b wo := by
  unfold k0_pay1
  simp only [shapeCast_self]
  refine (maximumf_zero _).trans (congrArg relu ?_)
  refine (addf_row _ _ _).trans (congrArg (addRow · b) ?_)
  funext i
  exact congrArg₂ (· + ·) (congrFun (matmul_zero_eq_mm (M := 5000) (K := 2) (N := 16) none a wr) i)
    (congrFun (matmul_zero_eq_mm (M := 5000) (K := 2) (N := 16) none x wo) i)

/-- The second layer's body (sixteen input features): the layer of its blocks. -/
theorem pay1_eq (a x : Vec Ideal S5000x16 .f32) (wr wo : Vec Ideal S16x16 .f32) (b : Vec Ideal S1x16 .f32) :
    (k1_pay1 (F := Ideal) a x wr wo b : Arr 5000 16) = conv (a : Arr 5000 16) x wr b wo := by
  unfold k1_pay1
  simp only [shapeCast_self]
  refine (maximumf_zero _).trans (congrArg relu ?_)
  refine (addf_row _ _ _).trans (congrArg (addRow · b) ?_)
  funext i
  exact congrArg₂ (· + ·) (congrFun (matmul_zero_eq_mm (M := 5000) (K := 16) (N := 16) none a wr) i)
    (congrFun (matmul_zero_eq_mm (M := 5000) (K := 16) (N := 16) none x wo) i)

/-- The third layer's body: the layer of its blocks. -/
theorem pay2_eq (a x : Vec Ideal S5000x16 .f32) (wr wo : Vec Ideal S16x16 .f32) (b : Vec Ideal S1x16 .f32) :
    (k2_pay1 (F := Ideal) a x wr wo b : Arr 5000 16) = conv (a : Arr 5000 16) x wr b wo := by
  unfold k2_pay1
  simp only [shapeCast_self]
  refine (maximumf_zero _).trans (congrArg relu ?_)
  refine (addf_row _ _ _).trans (congrArg (addRow · b) ?_)
  funext i
  exact congrArg₂ (· + ·) (congrFun (matmul_zero_eq_mm (M := 5000) (K := 16) (N := 16) none a wr) i)
    (congrFun (matmul_zero_eq_mm (M := 5000) (K := 16) (N := 16) none x wo) i)

/-- The last body: the two-layer head of its blocks. -/
theorem pay3_eq (h : Vec Ideal S5000x16 .f32) (w1 : Vec Ideal S16x16 .f32) (b1 : Vec Ideal S1x16 .f32)
    (w2 : Vec Ideal S16x1 .f32) (b2 : Vec Ideal S1x1 .f32) :
    (k3_pay1 (F := Ideal) h w1 b1 w2 b2 : Arr 5000 1) = head (h : Arr 5000 16) w1 b1 w2 b2 := by
  unfold k3_pay1
  simp only [shapeCast_self]
  refine (addf_row _ _ _).trans (congrArg (addRow · b2) ?_)
  refine (matmul_zero_eq_mm (M := 5000) (K := 16) (N := 1) none _ w2).trans (congrArg (mm · w2) ?_)
  refine (maximumf_zero _).trans (congrArg relu ?_)
  refine (addf_row _ _ _).trans (congrArg (addRow · b1) ?_)
  exact matmul_zero_eq_mm (M := 5000) (K := 16) (N := 16) none h w1

end Cert.KernelIdeal.Body

end
-- ==== Proof.Region0.lean ====
/-
  Region 0 of the kernel program (graph-convolution layer 1) as ONE function of the arrays it finds.

  The region's grid has twenty points; point `t` fetches rows `5000 t … 5000 t + 4999` of the two per-node arrays, the
  whole of the two weight matrices and of the bias row, and writes back rows `5000 t … 5000 t + 4999` of the result.  The layer is row-wise in the
  per-node arrays, so what point `t` writes back is that block of rows of the function of the WHOLE arrays; the twenty
  blocks cover every row (row `r` is in block `r / 5000`), so the result array ends holding that function.  The input
  arrays end as the region found them.  All of it for any buffer contents `V` at the region's entry.
-/
import proofs.«176941_j81990925680800_2_alg».proof.Proof.Gen.KernelIdeal.Frame
import proofs.«176941_j81990925680800_2_alg».proof.Proof.Body
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.KernelIdeal.Body Cert.GCN Cert.Layers Cert.Conv

variable (V : (c : Dev nD) → (b : Ref sig .tc) → Buf (Elt Ideal) ((c : Thread nD τ).loc b))

/-- The layer of the arrays the region finds: aggregated neighbours, own features, the neighbours' weights, the bias row, the own-feature weights. -/
def G (c : Dev nD) : Arr 100000 16 :=
  conv (V c (Pipeline.arrRef spec0 0) : Arr 100000 2) (V c (Pipeline.arrRef spec0 1)) (V c (Pipeline.arrRef spec0 2))
    (V c (Pipeline.arrRef spec0 3)) (V c (Pipeline.arrRef spec0 4))

theorem hz : (![0, 0] : Fin 2 → Nat) = fun _ => 0 := funext fun a => by fin_cases a <;> rfl

/-- The printed index maps over the grid: the per-node windows and the result window are at block row `t`, the
    others at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row of the whole arrays that row `r` of point `t`'s blocks is. -/
def row (t : Fin cfg0.N) (r : Fin 5000) : Fin 100000 :=
  ⟨t.val * 5000 + r.val, by have h : t.val < 20 := lt_of_lt_of_eq t.isLt N_0; have := r.isLt; omega⟩

/-- A per-node window's block at point `t` holds rows `row t ·` of its array. -/
theorem blk0_apply (c : Dev nD) (t : Fin cfg0.N) (r : Fin 5000) (d : Fin 2) :
    (iblk0 V c 0 t : Arr 5000 2) (ix2 r d) = (V c (Pipeline.arrRef spec0 0) : Arr 100000 2) (ix2 (row t r) d) := by
  obtain ⟨e0, e1, e2, e3, e4, e5, e6, e7, e8, e9, e10, e11⟩ := idx_facts t
  show (V c (Pipeline.arrRef spec0 0) : Arr 100000 2) (((cfg0.win 0).blk t).view.emb (ix2 r d)) = _
  refine congrArg _ (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 2 + 1 * d.val = d.val; rw [e1]; omega

theorem blk1_apply (c : Dev nD) (t : Fin cfg0.N) (r : Fin 5000) (d : Fin 2) :
    (iblk0 V c 1 t : Arr 5000 2) (ix2 r d) = (V c (Pipeline.arrRef spec0 1) : Arr 100000 2) (ix2 (row t r) d) := by
  obtain ⟨e0, e1, e2, e3, e4, e5, e6, e7, e8, e9, e10, e11⟩ := idx_facts t
  show (V c (Pipeline.arrRef spec0 1) : Arr 100000 2) (((cfg0.win 1).blk t).view.emb (ix2 r d)) = _
  refine congrArg _ (funext fun a => Fin.ext ?_)
  match a with
  | ⟨0, _⟩ => show win0_1.index t (0 : Fin 2) * 5000 + 1 * r.val = t.val * 5000 + r.val; rw [e2]; omega
  | ⟨1, _⟩ => show win0_1.index t (1 : Fin 2) * 2 + 1 * d.val = d.val; rw [e3]; omega

/-- A weight or bias window's one block is its whole array. -/
theorem blk2_eq (c : Dev nD) (t : Fin cfg0.N) : (iblk0 V c 2 t : Arr 2 16) = V c (Pipeline.arrRef spec0 2) := by
  obtain ⟨e0, e1, e2, e3, e4, e5, e6, e7, e8, e9, e10, e11⟩ := idx_facts t
  funext y
  show (V c (Pipeline.arrRef spec0 2) : Arr 2 16) (((cfg0.win 2).blk t).view.emb y) = _
  refine congrArg _ (funext fun a => Fin.ext ?_)
  match a with
  | ⟨0, _⟩ => show win0_2.index t (0 : Fin 2) * 2 + 1 * (y 0).val = (y 0).val; rw [e4]; omega
  | ⟨1, _⟩ => show win0_2.index t (1 : Fin 2) * 16 + 1 * (y 1).val = (y 1).val; rw [e5]; omega

theorem blk3_eq (c : Dev nD) (t : Fin cfg0.N) : (iblk0 V c 3 t : Arr 1 16) = V c (Pipeline.arrRef spec0 3) := by
  obtain ⟨e0, e1, e2, e3, e4, e5, e6, e7, e8, e9, e10, e11⟩ := idx_facts t
  funext y
  show (V c (Pipeline.arrRef spec0 3) : Arr 1 16) (((cfg0.win 3).blk t).view.emb y) = _
  refine congrArg _ (funext fun a => Fin.ext ?_)
  match a with
  | ⟨0, _⟩ => show win0_3.index t (0 : Fin 2) * 1 + 1 * (y 0).val = (y 0).val; rw [e6]; omega
  | ⟨1, _⟩ => show win0_3.index t (1 : Fin 2) * 16 + 1 * (y 1).val = (y 1).val; rw [e7]; omega

theorem blk4_eq (c : Dev nD) (t : Fin cfg0.N) : (iblk0 V c 4 t : Arr 2 16) = V c (Pipeline.arrRef spec0 4) := by
  obtain ⟨e0, e1, e2, e3, e4, e5, e6, e7, e8, e9, e10, e11⟩ := idx_facts t
  funext y
  show (V c (Pipeline.arrRef spec0 4) : Arr 2 16) (((cfg0.win 4).blk t).view.emb y) = _
  refine congrArg _ (funext fun a => Fin.ext ?_)
  match a with
  | ⟨0, _⟩ => show win0_4.index t (0 : Fin 2) * 2 + 1 * (y 0).val = (y 0).val; rw [e8]; omega
  | ⟨1, _⟩ => show win0_4.index t (1 : Fin 2) * 16 + 1 * (y 1).val = (y 1).val; rw [e9]; omega

/-- WHAT POINT `t` WRITES BACK is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x2) hz, View.ld_unit_zero (S := S2x16) hz, View.ld_unit_zero (S := S1x16) hz]
  obtain ⟨e0, e1, e2, e3, e4, e5, e6, e7, e8, e9, e10, e11⟩ := idx_facts t
  funext j
  obtain ⟨r, q, rfl⟩ : ∃ (r : Fin 5000) (q : Fin 16), j = ix2 r q := ⟨j 0, j 1, eq_ix2 j⟩
  have hemb : ((cfg0.win 5).blk t).view.emb (ix2 r q) = ix2 (row t r) q := by
    funext a; apply Fin.ext
    match a with
    | ⟨0, _⟩ => show win0_5.index t (0 : Fin 2) * 5000 + 1 * r.val = t.val * 5000 + r.val; rw [e10]; omega
    | ⟨1, _⟩ => show win0_5.index t (1 : Fin 2) * 16 + 1 * q.val = q.val; rw [e11]; omega
  show k0_pay1 (F := Ideal) _ _ _ _ _ (ix2 r q) = G V c (((cfg0.win 5).blk t).view.emb (ix2 r q))
  rw [hemb]
  refine (congrFun (pay0_eq (iblk0 V c 0 t) (iblk0 V c 1 t) (iblk0 V c 2 t) (iblk0 V c 4 t) (iblk0 V c 3 t)) (ix2 r q)).trans ?_
  rw [blk2_eq V c t, blk3_eq V c t, blk4_eq V c t]
  exact conv_rows (row t) _ _ _ _ _ _ _ (blk0_apply V c t) (blk1_apply V c t) r q

/-- An index of the result array is in point `t`'s block iff each coordinate is in the block's range on its axis. -/
theorem mem_blk (t : Fin cfg0.N) (i : S100000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v15).slice (win0_5.rect t)).set ↔ _
  rw [View.set_slice_whole, Rect.mem_set_unit]
  exact Iff.rfl

/-- THE RESULT ARRAY after the region: `G`. -/
theorem final (c : Dev nD) : (dat0 V c).arrAt 5 cfg0.N = G V c :=
  (dat0 V c).arrAt_eq_of_cover 5 (G V c) (fun t _ => flushed_eq V c t) fun i => by
    have hi0 : (i 0).val < 100000 := (i 0).isLt
    have hi1 : (i 1).val < 16 := (i 1).isLt
    have hN : grid0.N = 20 := N_0
    let t : Fin cfg0.N := ⟨(i 0).val / 5000, by show _ < grid0.N; rw [hN]; omega⟩
    obtain ⟨e0, e1, e2, e3, e4, e5, e6, e7, e8, e9, e10, e11⟩ := idx_facts t
    have ht : t.val = (i 0).val / 5000 := rfl
    refine ⟨t, flush0_5 t, ?_⟩
    rw [mem_blk]
    intro a
    match a with
    | ⟨0, _⟩ => show win0_5.index t (0 : Fin 2) * 5000 ≤ (i 0).val ∧ (i 0).val < win0_5.index t (0 : Fin 2) * 5000 + 5000; rw [e10]; omega
    | ⟨1, _⟩ => show win0_5.index t (1 : Fin 2) * 16 ≤ (i 1).val ∧ (i 1).val < win0_5.index t (1 : Fin 2) * 16 + 16; rw [e11]; omega

/-- An input array ends as the region found it. -/
theorem kept (c : Dev nD) (w : Fin cfg0.W) (hw : w ≠ 5) : (dat0 V c).arrAt w cfg0.N = V c (Pipeline.arrRef spec0 w) := by
  match w, hw with
  | ⟨0, _⟩, _ => exact ((dat0 V c).arrAt_in 0 rfl _).trans (A_eq0 V c 0)
  | ⟨1, _⟩, _ => exact ((dat0 V c).arrAt_in 1 rfl _).trans (A_eq0 V c 1)
  | ⟨2, _⟩, _ => exact ((dat0 V c).arrAt_in 2 rfl _).trans (A_eq0 V c 2)
  | ⟨3, _⟩, _ => exact ((dat0 V c).arrAt_in 3 rfl _).trans (A_eq0 V c 3)
  | ⟨4, _⟩, _ => exact ((dat0 V c).arrAt_in 4 rfl _).trans (A_eq0 V c 4)
  | ⟨5, _⟩, h => exact absurd rfl h

end Cert.KernelIdeal.Region0

end
-- ==== Proof.Region1.lean ====
/-
  Region 1 of the kernel program (graph-convolution layer 2) as ONE function of the arrays it finds.

  The region's grid has twenty points; point `t` fetches rows `5000 t … 5000 t + 4999` of the two per-node arrays, the
  whole of the two weight matrices and of the bias row, and writes back rows `5000 t … 5000 t + 4999` of the result.  The layer is row-wise in the
  per-node arrays, so what point `t` writes back is that block of rows of the function of the WHOLE arrays; the twenty
  blocks cover every row (row `r` is in block `r / 5000`), so the result array ends holding that function.  The input
  arrays end as the region found them.  All of it for any buffer contents `V` at the region's entry.
-/
import proofs.«176941_j81990925680800_2_alg».proof.Proof.Gen.KernelIdeal.Frame
import proofs.«176941_j81990925680800_2_alg».proof.Proof.Body
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.KernelIdeal.Body Cert.GCN Cert.Layers Cert.Conv

variable (V : (c : Dev nD) → (b : Ref sig .tc) → Buf (Elt Ideal) ((c : Thread nD τ).loc b))

/-- The layer of the arrays the region finds: aggregated neighbours, own features, the neighbours' weights, the bias row, the own-feature weights. -/
def G (c : Dev nD) : Arr 100000 16 :=
  conv (V c (Pipeline.arrRef spec1 0) : Arr 100000 16) (V c (Pipeline.arrRef spec1 1)) (V c (Pipeline.arrRef spec1 2))
    (V c (Pipeline.arrRef spec1 3)) (V c (Pipeline.arrRef spec1 4))

theorem hz : (![0, 0] : Fin 2 → Nat) = fun _ => 0 := funext fun a => by fin_cases a <;> rfl

/-- The printed index maps over the grid: the per-node windows and the result window are at block row `t`, the
    others at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The row of the whole arrays that row `r` of point `t`'s blocks is. -/
def row (t : Fin cfg1.N) (r : Fin 5000) : Fin 100000 :=
  ⟨t.val * 5000 + r.val, by have h : t.val < 20 := lt_of_lt_of_eq t.isLt N_1; have := r.isLt; omega⟩

/-- A per-node window's block at point `t` holds rows `row t ·` of its array. -/
theorem blk0_apply (c : Dev nD) (t : Fin cfg1.N) (r : Fin 5000) (d : Fin 16) :
    (iblk1 V c 0 t : Arr 5000 16) (ix2 r d) = (V c (Pipeline.arrRef spec1 0) : Arr 100000 16) (ix2 (row t r) d) := by
  obtain ⟨e0, e1, e2, e3, e4, e5, e6, e7, e8, e9, e10, e11⟩ := idx_facts t
  show (V c (Pipeline.arrRef spec1 0) : Arr 100000 16) (((cfg1.win 0).blk t).view.emb (ix2 r d)) = _
  refine congrArg _ (funext fun a => Fin.ext ?_)
  match a with
  | ⟨0, _⟩ => show win1_0.index t (0 : Fin 2) * 5000 + 1 * r.val = t.val * 5000 + r.val; rw [e0]; omega
  | ⟨1, _⟩ => show win1_0.index t (1 : Fin 2) * 16 + 1 * d.val = d.val; rw [e1]; omega

theorem blk1_apply (c : Dev nD) (t : Fin cfg1.N) (r : Fin 5000) (d : Fin 16) :
    (iblk1 V c 1 t : Arr 5000 16) (ix2 r d) = (V c (Pipeline.arrRef spec1 1) : Arr 100000 16) (ix2 (row t r) d) := by
  obtain ⟨e0, e1, e2, e3, e4, e5, e6, e7, e8, e9, e10, e11⟩ := idx_facts t
  show (V c (Pipeline.arrRef spec1 1) : Arr 100000 16) (((cfg1.win 1).blk t).view.emb (ix2 r d)) = _
  refine congrArg _ (funext fun a => Fin.ext ?_)
  match a with
  | ⟨0, _⟩ => show win1_1.index t (0 : Fin 2) * 5000 + 1 * r.val = t.val * 5000 + r.val; rw [e2]; omega
  | ⟨1, _⟩ => show win1_1.index t (1 : Fin 2) * 16 + 1 * d.val = d.val; rw [e3]; omega

/-- A weight or bias window's one block is its whole array. -/
theorem blk2_eq (c : Dev nD) (t : Fin cfg1.N) : (iblk1 V c 2 t : Arr 16 16) = V c (Pipeline.arrRef spec1 2) := by
  obtain ⟨e0, e1, e2, e3, e4, e5, e6, e7, e8, e9, e10, e11⟩ := idx_facts t
  funext y
  show (V c (Pipeline.arrRef spec1 2) : Arr 16 16) (((cfg1.win 2).blk t).view.emb y) = _
  refine congrArg _ (funext fun a => Fin.ext ?_)
  match a with
  | ⟨0, _⟩ => show win1_2.index t (0 : Fin 2) * 16 + 1 * (y 0).val = (y 0).val; rw [e4]; omega
  | ⟨1, _⟩ => show win1_2.index t (1 : Fin 2) * 16 + 1 * (y 1).val = (y 1).val; rw [e5]; omega

theorem blk3_eq (c : Dev nD) (t : Fin cfg1.N) : (iblk1 V c 3 t : Arr 1 16) = V c (Pipeline.arrRef spec1 3) := by
  obtain ⟨e0, e1, e2, e3, e4, e5, e6, e7, e8, e9, e10, e11⟩ := idx_facts t
  funext y
  show (V c (Pipeline.arrRef spec1 3) : Arr 1 16) (((cfg1.win 3).blk t).view.emb y) = _
  refine congrArg _ (funext fun a => Fin.ext ?_)
  match a with
  | ⟨0, _⟩ => show win1_3.index t (0 : Fin 2) * 1 + 1 * (y 0).val = (y 0).val; rw [e6]; omega
  | ⟨1, _⟩ => show win1_3.index t (1 : Fin 2) * 16 + 1 * (y 1).val = (y 1).val; rw [e7]; omega

theorem blk4_eq (c : Dev nD) (t : Fin cfg1.N) : (iblk1 V c 4 t : Arr 16 16) = V c (Pipeline.arrRef spec1 4) := by
  obtain ⟨e0, e1, e2, e3, e4, e5, e6, e7, e8, e9, e10, e11⟩ := idx_facts t
  funext y
  show (V c (Pipeline.arrRef spec1 4) : Arr 16 16) (((cfg1.win 4).blk t).view.emb y) = _
  refine congrArg _ (funext fun a => Fin.ext ?_)
  match a with
  | ⟨0, _⟩ => show win1_4.index t (0 : Fin 2) * 16 + 1 * (y 0).val = (y 0).val; rw [e8]; omega
  | ⟨1, _⟩ => show win1_4.index t (1 : Fin 2) * 16 + 1 * (y 1).val = (y 1).val; rw [e9]; omega

/-- WHAT POINT `t` WRITES BACK is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x16) hz, View.ld_unit_zero (S := S16x16) hz, View.ld_unit_zero (S := S1x16) hz]
  obtain ⟨e0, e1, e2, e3, e4, e5, e6, e7, e8, e9, e10, e11⟩ := idx_facts t
  funext j
  obtain ⟨r, q, rfl⟩ : ∃ (r : Fin 5000) (q : Fin 16), j = ix2 r q := ⟨j 0, j 1, eq_ix2 j⟩
  have hemb : ((cfg1.win 5).blk t).view.emb (ix2 r q) = ix2 (row t r) q := by
    funext a; apply Fin.ext
    match a with
    | ⟨0, _⟩ => show win1_5.index t (0 : Fin 2) * 5000 + 1 * r.val = t.val * 5000 + r.val; rw [e10]; omega
    | ⟨1, _⟩ => show win1_5.index t (1 : Fin 2) * 16 + 1 * q.val = q.val; rw [e11]; omega
  show k1_pay1 (F := Ideal) _ _ _ _ _ (ix2 r q) = G V c (((cfg1.win 5).blk t).view.emb (ix2 r q))
  rw [hemb]
  refine (congrFun (pay1_eq (iblk1 V c 0 t) (iblk1 V c 1 t) (iblk1 V c 2 t) (iblk1 V c 4 t) (iblk1 V c 3 t)) (ix2 r q)).trans ?_
  rw [blk2_eq V c t, blk3_eq V c t, blk4_eq V c t]
  exact conv_rows (row t) _ _ _ _ _ _ _ (blk0_apply V c t) (blk1_apply V c t) r q

/-- An index of the result array is in point `t`'s block iff each coordinate is in the block's range on its axis. -/
theorem mem_blk (t : Fin cfg1.N) (i : S100000x16.Idx) :
    i ∈ ((cfg1.win 5).blk t).view.set ↔ ∀ a : Fin 2, win1_5.index t a * S5000x16.size a ≤ (i a).val ∧ (i a).val < win1_5.index t a * S5000x16.size a + S5000x16.size a := by
  show i ∈ ((View.whole main_v27).slice (win1_5.rect t)).set ↔ _
  rw [View.set_slice_whole, Rect.mem_set_unit]
  exact Iff.rfl

/-- THE RESULT ARRAY after the region: `G`. -/
theorem final (c : Dev nD) : (dat1 V c).arrAt 5 cfg1.N = G V c :=
  (dat1 V c).arrAt_eq_of_cover 5 (G V c) (fun t _ => flushed_eq V c t) fun i => by
    have hi0 : (i 0).val < 100000 := (i 0).isLt
    have hi1 : (i 1).val < 16 := (i 1).isLt
    have hN : grid1.N = 20 := N_1
    let t : Fin cfg1.N := ⟨(i 0).val / 5000, by show _ < grid1.N; rw [hN]; omega⟩
    obtain ⟨e0, e1, e2, e3, e4, e5, e6, e7, e8, e9, e10, e11⟩ := idx_facts t
    have ht : t.val = (i 0).val / 5000 := rfl
    refine ⟨t, flush1_5 t, ?_⟩
    rw [mem_blk]
    intro a
    match a with
    | ⟨0, _⟩ => show win1_5.index t (0 : Fin 2) * 5000 ≤ (i 0).val ∧ (i 0).val < win1_5.index t (0 : Fin 2) * 5000 + 5000; rw [e10]; omega
    | ⟨1, _⟩ => show win1_5.index t (1 : Fin 2) * 16 ≤ (i 1).val ∧ (i 1).val < win1_5.index t (1 : Fin 2) * 16 + 16; rw [e11]; omega

/-- An input array ends as the region found it. -/
theorem kept (c : Dev nD) (w : Fin cfg1.W) (hw : w ≠ 5) : (dat1 V c).arrAt w cfg1.N = V c (Pipeline.arrRef spec1 w) := by
  match w, hw with
  | ⟨0, _⟩, _ => exact ((dat1 V c).arrAt_in 0 rfl _).trans (A_eq1 V c 0)
  | ⟨1, _⟩, _ => exact ((dat1 V c).arrAt_in 1 rfl _).trans (A_eq1 V c 1)
  | ⟨2, _⟩, _ => exact ((dat1 V c).arrAt_in 2 rfl _).trans (A_eq1 V c 2)
  | ⟨3, _⟩, _ => exact ((dat1 V c).arrAt_in 3 rfl _).trans (A_eq1 V c 3)
  | ⟨4, _⟩, _ => exact ((dat1 V c).arrAt_in 4 rfl _).trans (A_eq1 V c 4)
  | ⟨5, _⟩, h => exact absurd rfl h

end Cert.KernelIdeal.Region1

end
-- ==== Proof.Region2.lean ====
/-
  Region 2 of the kernel program (graph-convolution layer 3) as ONE function of the arrays it finds.

  The region's grid has twenty points; point `t` fetches rows `5000 t … 5000 t + 4999` of the two per-node arrays, the
  whole of the two weight matrices and of the bias row, and writes back rows `5000 t … 5000 t + 4999` of the result.  The layer is row-wise in the
  per-node arrays, so what point `t` writes back is that block of rows of the function of the WHOLE arrays; the twenty
  blocks cover every row (row `r` is in block `r / 5000`), so the result array ends holding that function.  The input
  arrays end as the region found them.  All of it for any buffer contents `V` at the region's entry.
-/
import proofs.«176941_j81990925680800_2_alg».proof.Proof.Gen.KernelIdeal.Frame
import proofs.«176941_j81990925680800_2_alg».proof.Proof.Body
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.KernelIdeal.Body Cert.GCN Cert.Layers Cert.Conv

variable (V : (c : Dev nD) → (b : Ref sig .tc) → Buf (Elt Ideal) ((c : Thread nD τ).loc b))

/-- The layer of the arrays the region finds: aggregated neighbours, own features, the neighbours' weights, the bias row, the own-feature weights. -/
def G (c : Dev nD) : Arr 100000 16 :=
  conv (V c (Pipeline.arrRef spec2 0) : Arr 100000 16) (V c (Pipeline.arrRef spec2 1)) (V c (Pipeline.arrRef spec2 2))
    (V c (Pipeline.arrRef spec2 3)) (V c (Pipeline.arrRef spec2 4))

theorem hz : (![0, 0] : Fin 2 → Nat) = fun _ => 0 := funext fun a => by fin_cases a <;> rfl

/-- The printed index maps over the grid: the per-node windows and the result window are at block row `t`, the
    others at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The row of the whole arrays that row `r` of point `t`'s blocks is. -/
def row (t : Fin cfg2.N) (r : Fin 5000) : Fin 100000 :=
  ⟨t.val * 5000 + r.val, by have h : t.val < 20 := lt_of_lt_of_eq t.isLt N_2; have := r.isLt; omega⟩

/-- A per-node window's block at point `t` holds rows `row t ·` of its array. -/
theorem blk0_apply (c : Dev nD) (t : Fin cfg2.N) (r : Fin 5000) (d : Fin 16) :
    (iblk2 V c 0 t : Arr 5000 16) (ix2 r d) = (V c (Pipeline.arrRef spec2 0) : Arr 100000 16) (ix2 (row t r) d) := by
  obtain ⟨e0, e1, e2, e3, e4, e5, e6, e7, e8, e9, e10, e11⟩ := idx_facts t
  show (V c (Pipeline.arrRef spec2 0) : Arr 100000 16) (((cfg2.win 0).blk t).view.emb (ix2 r d)) = _
  refine congrArg _ (funext fun a => Fin.ext ?_)
  match a with
  | ⟨0, _⟩ => show win2_0.index t (0 : Fin 2) * 5000 + 1 * r.val = t.val * 5000 + r.val; rw [e0]; omega
  | ⟨1, _⟩ => show win2_0.index t (1 : Fin 2) * 16 + 1 * d.val = d.val; rw [e1]; omega

theorem blk1_apply (c : Dev nD) (t : Fin cfg2.N) (r : Fin 5000) (d : Fin 16) :
    (iblk2 V c 1 t : Arr 5000 16) (ix2 r d) = (V c (Pipeline.arrRef spec2 1) : Arr 100000 16) (ix2 (row t r) d) := by
  obtain ⟨e0, e1, e2, e3, e4, e5, e6, e7, e8, e9, e10, e11⟩ := idx_facts t
  show (V c (Pipeline.arrRef spec2 1) : Arr 100000 16) (((cfg2.win 1).blk t).view.emb (ix2 r d)) = _
  refine congrArg _ (funext fun a => Fin.ext ?_)
  match a with
  | ⟨0, _⟩ => show win2_1.index t (0 : Fin 2) * 5000 + 1 * r.val = t.val * 5000 + r.val; rw [e2]; omega
  | ⟨1, _⟩ => show win2_1.index t (1 : Fin 2) * 16 + 1 * d.val = d.val; rw [e3]; omega

/-- A weight or bias window's one block is its whole array. -/
theorem blk2_eq (c : Dev nD) (t : Fin cfg2.N) : (iblk2 V c 2 t : Arr 16 16) = V c (Pipeline.arrRef spec2 2) := by
  obtain ⟨e0, e1, e2, e3, e4, e5, e6, e7, e8, e9, e10, e11⟩ := idx_facts t
  funext y
  show (V c (Pipeline.arrRef spec2 2) : Arr 16 16) (((cfg2.win 2).blk t).view.emb y) = _
  refine congrArg _ (funext fun a => Fin.ext ?_)
  match a with
  | ⟨0, _⟩ => show win2_2.index t (0 : Fin 2) * 16 + 1 * (y 0).val = (y 0).val; rw [e4]; omega
  | ⟨1, _⟩ => show win2_2.index t (1 : Fin 2) * 16 + 1 * (y 1).val = (y 1).val; rw [e5]; omega

theorem blk3_eq (c : Dev nD) (t : Fin cfg2.N) : (iblk2 V c 3 t : Arr 1 16) = V c (Pipeline.arrRef spec2 3) := by
  obtain ⟨e0, e1, e2, e3, e4, e5, e6, e7, e8, e9, e10, e11⟩ := idx_facts t
  funext y
  show (V c (Pipeline.arrRef spec2 3) : Arr 1 16) (((cfg2.win 3).blk t).view.emb y) = _
  refine congrArg _ (funext fun a => Fin.ext ?_)
  match a with
  | ⟨0, _⟩ => show win2_3.index t (0 : Fin 2) * 1 + 1 * (y 0).val = (y 0).val; rw [e6]; omega
  | ⟨1, _⟩ => show win2_3.index t (1 : Fin 2) * 16 + 1 * (y 1).val = (y 1).val; rw [e7]; omega

theorem blk4_eq (c : Dev nD) (t : Fin cfg2.N) : (iblk2 V c 4 t : Arr 16 16) = V c (Pipeline.arrRef spec2 4) := by
  obtain ⟨e0, e1, e2, e3, e4, e5, e6, e7, e8, e9, e10, e11⟩ := idx_facts t
  funext y
  show (V c (Pipeline.arrRef spec2 4) : Arr 16 16) (((cfg2.win 4).blk t).view.emb y) = _
  refine congrArg _ (funext fun a => Fin.ext ?_)
  match a with
  | ⟨0, _⟩ => show win2_4.index t (0 : Fin 2) * 16 + 1 * (y 0).val = (y 0).val; rw [e8]; omega
  | ⟨1, _⟩ => show win2_4.index t (1 : Fin 2) * 16 + 1 * (y 1).val = (y 1).val; rw [e9]; omega

/-- WHAT POINT `t` WRITES BACK is block `t` of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x16) hz, View.ld_unit_zero (S := S16x16) hz, View.ld_unit_zero (S := S1x16) hz]
  obtain ⟨e0, e1, e2, e3, e4, e5, e6, e7, e8, e9, e10, e11⟩ := idx_facts t
  funext j
  obtain ⟨r, q, rfl⟩ : ∃ (r : Fin 5000) (q : Fin 16), j = ix2 r q := ⟨j 0, j 1, eq_ix2 j⟩
  have hemb : ((cfg2.win 5).blk t).view.emb (ix2 r q) = ix2 (row t r) q := by
    funext a; apply Fin.ext
    match a with
    | ⟨0, _⟩ => show win2_5.index t (0 : Fin 2) * 5000 + 1 * r.val = t.val * 5000 + r.val; rw [e10]; omega
    | ⟨1, _⟩ => show win2_5.index t (1 : Fin 2) * 16 + 1 * q.val = q.val; rw [e11]; omega
  show k2_pay1 (F := Ideal) _ _ _ _ _ (ix2 r q) = G V c (((cfg2.win 5).blk t).view.emb (ix2 r q))
  rw [hemb]
  refine (congrFun (pay2_eq (iblk2 V c 0 t) (iblk2 V c 1 t) (iblk2 V c 2 t) (iblk2 V c 4 t) (iblk2 V c 3 t)) (ix2 r q)).trans ?_
  rw [blk2_eq V c t, blk3_eq V c t, blk4_eq V c t]
  exact conv_rows (row t) _ _ _ _ _ _ _ (blk0_apply V c t) (blk1_apply V c t) r q

/-- An index of the result array is in point `t`'s block iff each coordinate is in the block's range on its axis. -/
theorem mem_blk (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v39).slice (win2_5.rect t)).set ↔ _
  rw [View.set_slice_whole, Rect.mem_set_unit]
  exact Iff.rfl

/-- THE RESULT ARRAY after the region: `G`. -/
theorem final (c : Dev nD) : (dat2 V c).arrAt 5 cfg2.N = G V c :=
  (dat2 V c).arrAt_eq_of_cover 5 (G V c) (fun t _ => flushed_eq V c t) fun i => by
    have hi0 : (i 0).val < 100000 := (i 0).isLt
    have hi1 : (i 1).val < 16 := (i 1).isLt
    have hN : grid2.N = 20 := N_2
    let t : Fin cfg2.N := ⟨(i 0).val / 5000, by show _ < grid2.N; rw [hN]; omega⟩
    obtain ⟨e0, e1, e2, e3, e4, e5, e6, e7, e8, e9, e10, e11⟩ := idx_facts t
    have ht : t.val = (i 0).val / 5000 := rfl
    refine ⟨t, flush2_5 t, ?_⟩
    rw [mem_blk]
    intro a
    match a with
    | ⟨0, _⟩ => show win2_5.index t (0 : Fin 2) * 5000 ≤ (i 0).val ∧ (i 0).val < win2_5.index t (0 : Fin 2) * 5000 + 5000; rw [e10]; omega
    | ⟨1, _⟩ => show win2_5.index t (1 : Fin 2) * 16 ≤ (i 1).val ∧ (i 1).val < win2_5.index t (1 : Fin 2) * 16 + 16; rw [e11]; omega

/-- An input array ends as the region found it. -/
theorem kept (c : Dev nD) (w : Fin cfg2.W) (hw : w ≠ 5) : (dat2 V c).arrAt w cfg2.N = V c (Pipeline.arrRef spec2 w) := by
  match w, hw with
  | ⟨0, _⟩, _ => exact ((dat2 V c).arrAt_in 0 rfl _).trans (A_eq2 V c 0)
  | ⟨1, _⟩, _ => exact ((dat2 V c).arrAt_in 1 rfl _).trans (A_eq2 V c 1)
  | ⟨2, _⟩, _ => exact ((dat2 V c).arrAt_in 2 rfl _).trans (A_eq2 V c 2)
  | ⟨3, _⟩, _ => exact ((dat2 V c).arrAt_in 3 rfl _).trans (A_eq2 V c 3)
  | ⟨4, _⟩, _ => exact ((dat2 V c).arrAt_in 4 rfl _).trans (A_eq2 V c 4)
  | ⟨5, _⟩, h => exact absurd rfl h

end Cert.KernelIdeal.Region2

end
-- ==== Proof.Region3.lean ====
/-
  Region 3 of the kernel program (the two-layer head) as ONE function of the arrays it finds.

  The region's grid has twenty points; point `t` fetches rows `5000 t … 5000 t + 4999` of the per-node array, the
  whole of the two weight matrices and of the two bias rows, and writes back rows `5000 t … 5000 t + 4999` of the result.  The head is row-wise in the
  per-node array, so what point `t` writes back is that block of rows of the function of the WHOLE arrays; the twenty
  blocks cover every row (row `r` is in block `r / 5000`), so the result array ends holding that function.  The input
  arrays end as the region found them.  All of it for any buffer contents `V` at the region's entry.
-/
import proofs.«176941_j81990925680800_2_alg».proof.Proof.Gen.KernelIdeal.Frame
import proofs.«176941_j81990925680800_2_alg».proof.Proof.Body
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.KernelIdeal.Body Cert.GCN Cert.Layers Cert.Conv

variable (V : (c : Dev nD) → (b : Ref sig .tc) → Buf (Elt Ideal) ((c : Thread nD τ).loc b))

/-- The head of the arrays the region finds: the node features, the first weights and bias row, the second weights and bias row. -/
def G (c : Dev nD) : Arr 100000 1 :=
  head (V c (Pipeline.arrRef spec3 0) : Arr 100000 16) (V c (Pipeline.arrRef spec3 1)) (V c (Pipeline.arrRef spec3 2))
    (V c (Pipeline.arrRef spec3 3)) (V c (Pipeline.arrRef spec3 4))

theorem hz : (![0, 0] : Fin 2 → Nat) = fun _ => 0 := funext fun a => by fin_cases a <;> rfl

/-- The printed index maps over the grid: the per-node windows and the result window are at block row `t`, the
    others at their one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The row of the whole arrays that row `r` of point `t`'s blocks is. -/
def row (t : Fin cfg3.N) (r : Fin 5000) : Fin 100000 :=
  ⟨t.val * 5000 + r.val, by have h : t.val < 20 := lt_of_lt_of_eq t.isLt N_3; have := r.isLt; omega⟩

/-- The per-node window's block at point `t` holds rows `row t ·` of its array. -/
theorem blk0_apply (c : Dev nD) (t : Fin cfg3.N) (r : Fin 5000) (d : Fin 16) :
    (iblk3 V c 0 t : Arr 5000 16) (ix2 r d) = (V c (Pipeline.arrRef spec3 0) : Arr 100000 16) (ix2 (row t r) d) := by
  obtain ⟨e0, e1, e2, e3, e4, e5, e6, e7, e8, e9, e10, e11⟩ := idx_facts t
  show (V c (Pipeline.arrRef spec3 0) : Arr 100000 16) (((cfg3.win 0).blk t).view.emb (ix2 r d)) = _
  refine congrArg _ (funext fun a => Fin.ext ?_)
  match a with
  | ⟨0, _⟩ => show win3_0.index t (0 : Fin 2) * 5000 + 1 * r.val = t.val * 5000 + r.val; rw [e0]; omega
  | ⟨1, _⟩ => show win3_0.index t (1 : Fin 2) * 16 + 1 * d.val = d.val; rw [e1]; omega

/-- A weight or bias window's one block is its whole array. -/
theorem blk1_eq (c : Dev nD) (t : Fin cfg3.N) : (iblk3 V c 1 t : Arr 16 16) = V c (Pipeline.arrRef spec3 1) := by
  obtain ⟨e0, e1, e2, e3, e4, e5, e6, e7, e8, e9, e10, e11⟩ := idx_facts t
  funext y
  show (V c (Pipeline.arrRef spec3 1) : Arr 16 16) (((cfg3.win 1).blk t).view.emb y) = _
  refine congrArg _ (funext fun a => Fin.ext ?_)
  match a with
  | ⟨0, _⟩ => show win3_1.index t (0 : Fin 2) * 16 + 1 * (y 0).val = (y 0).val; rw [e2]; omega
  | ⟨1, _⟩ => show win3_1.index t (1 : Fin 2) * 16 + 1 * (y 1).val = (y 1).val; rw [e3]; omega

theorem blk2_eq (c : Dev nD) (t : Fin cfg3.N) : (iblk3 V c 2 t : Arr 1 16) = V c (Pipeline.arrRef spec3 2) := by
  obtain ⟨e0, e1, e2, e3, e4, e5, e6, e7, e8, e9, e10, e11⟩ := idx_facts t
  funext y
  show (V c (Pipeline.arrRef spec3 2) : Arr 1 16) (((cfg3.win 2).blk t).view.emb y) = _
  refine congrArg _ (funext fun a => Fin.ext ?_)
  match a with
  | ⟨0, _⟩ => show win3_2.index t (0 : Fin 2) * 1 + 1 * (y 0).val = (y 0).val; rw [e4]; omega
  | ⟨1, _⟩ => show win3_2.index t (1 : Fin 2) * 16 + 1 * (y 1).val = (y 1).val; rw [e5]; omega

theorem blk3_eq (c : Dev nD) (t : Fin cfg3.N) : (iblk3 V c 3 t : Arr 16 1) = V c (Pipeline.arrRef spec3 3) := by
  obtain ⟨e0, e1, e2, e3, e4, e5, e6, e7, e8, e9, e10, e11⟩ := idx_facts t
  funext y
  show (V c (Pipeline.arrRef spec3 3) : Arr 16 1) (((cfg3.win 3).blk t).view.emb y) = _
  refine congrArg _ (funext fun a => Fin.ext ?_)
  match a with
  | ⟨0, _⟩ => show win3_3.index t (0 : Fin 2) * 16 + 1 * (y 0).val = (y 0).val; rw [e6]; omega
  | ⟨1, _⟩ => show win3_3.index t (1 : Fin 2) * 1 + 1 * (y 1).val = (y 1).val; rw [e7]; omega

theorem blk4_eq (c : Dev nD) (t : Fin cfg3.N) : (iblk3 V c 4 t : Arr 1 1) = V c (Pipeline.arrRef spec3 4) := by
  obtain ⟨e0, e1, e2, e3, e4, e5, e6, e7, e8, e9, e10, e11⟩ := idx_facts t
  funext y
  show (V c (Pipeline.arrRef spec3 4) : Arr 1 1) (((cfg3.win 4).blk t).view.emb y) = _
  refine congrArg _ (funext fun a => Fin.ext ?_)
  match a with
  | ⟨0, _⟩ => show win3_4.index t (0 : Fin 2) * 1 + 1 * (y 0).val = (y 0).val; rw [e8]; omega
  | ⟨1, _⟩ => show win3_4.index t (1 : Fin 2) * 1 + 1 * (y 1).val = (y 1).val; rw [e9]; omega

/-- WHAT POINT `t` WRITES BACK is block `t` of `G`. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x16) hz, View.ld_unit_zero (S := S16x16) hz, View.ld_unit_zero (S := S1x16) hz, View.ld_unit_zero (S := S16x1) hz, View.ld_unit_zero (S := S1x1) hz]
  obtain ⟨e0, e1, e2, e3, e4, e5, e6, e7, e8, e9, e10, e11⟩ := idx_facts t
  funext j
  obtain ⟨r, q, rfl⟩ : ∃ (r : Fin 5000) (q : Fin 1), j = ix2 r q := ⟨j 0, j 1, eq_ix2 j⟩
  have hemb : ((cfg3.win 5).blk t).view.emb (ix2 r q) = ix2 (row t r) q := by
    funext a; apply Fin.ext
    match a with
    | ⟨0, _⟩ => show win3_5.index t (0 : Fin 2) * 5000 + 1 * r.val = t.val * 5000 + r.val; rw [e10]; omega
    | ⟨1, _⟩ => show win3_5.index t (1 : Fin 2) * 1 + 1 * q.val = q.val; rw [e11]; omega
  show k3_pay1 (F := Ideal) _ _ _ _ _ (ix2 r q) = G V c (((cfg3.win 5).blk t).view.emb (ix2 r q))
  rw [hemb]
  refine (congrFun (pay3_eq (iblk3 V c 0 t) (iblk3 V c 1 t) (iblk3 V c 2 t) (iblk3 V c 3 t) (iblk3 V c 4 t)) (ix2 r q)).trans ?_
  rw [blk1_eq V c t, blk2_eq V c t, blk3_eq V c t, blk4_eq V c t]
  exact head_rows (row t) _ _ _ _ _ _ (blk0_apply V c t) r q

/-- An index of the result array is in point `t`'s block iff each coordinate is in the block's range on its axis. -/
theorem mem_blk (t : Fin cfg3.N) (i : S100000x1.Idx) :
    i ∈ ((cfg3.win 5).blk t).view.set ↔ ∀ a : Fin 2, win3_5.index t a * S5000x1.size a ≤ (i a).val ∧ (i a).val < win3_5.index t a * S5000x1.size a + S5000x1.size a := by
  show i ∈ ((View.whole main_v42).slice (win3_5.rect t)).set ↔ _
  rw [View.set_slice_whole, Rect.mem_set_unit]
  exact Iff.rfl

/-- THE RESULT ARRAY after the region: `G`. -/
theorem final (c : Dev nD) : (dat3 V c).arrAt 5 cfg3.N = G V c :=
  (dat3 V c).arrAt_eq_of_cover 5 (G V c) (fun t _ => flushed_eq V c t) fun i => by
    have hi0 : (i 0).val < 100000 := (i 0).isLt
    have hi1 : (i 1).val < 1 := (i 1).isLt
    have hN : grid3.N = 20 := N_3
    let t : Fin cfg3.N := ⟨(i 0).val / 5000, by show _ < grid3.N; rw [hN]; omega⟩
    obtain ⟨e0, e1, e2, e3, e4, e5, e6, e7, e8, e9, e10, e11⟩ := idx_facts t
    have ht : t.val = (i 0).val / 5000 := rfl
    refine ⟨t, flush3_5 t, ?_⟩
    rw [mem_blk]
    intro a
    match a with
    | ⟨0, _⟩ => show win3_5.index t (0 : Fin 2) * 5000 ≤ (i 0).val ∧ (i 0).val < win3_5.index t (0 : Fin 2) * 5000 + 5000; rw [e10]; omega
    | ⟨1, _⟩ => show win3_5.index t (1 : Fin 2) * 1 ≤ (i 1).val ∧ (i 1).val < win3_5.index t (1 : Fin 2) * 1 + 1; rw [e11]; omega

/-- An input array ends as the region found it. -/
theorem kept (c : Dev nD) (w : Fin cfg3.W) (hw : w ≠ 5) : (dat3 V c).arrAt w cfg3.N = V c (Pipeline.arrRef spec3 w) := by
  match w, hw with
  | ⟨0, _⟩, _ => exact ((dat3 V c).arrAt_in 0 rfl _).trans (A_eq3 V c 0)
  | ⟨1, _⟩, _ => exact ((dat3 V c).arrAt_in 1 rfl _).trans (A_eq3 V c 1)
  | ⟨2, _⟩, _ => exact ((dat3 V c).arrAt_in 2 rfl _).trans (A_eq3 V c 2)
  | ⟨3, _⟩, _ => exact ((dat3 V c).arrAt_in 3 rfl _).trans (A_eq3 V c 3)
  | ⟨4, _⟩, _ => exact ((dat3 V c).arrAt_in 4 rfl _).trans (A_eq3 V c 4)
  | ⟨5, _⟩, h => exact absurd rfl h

end Cert.KernelIdeal.Region3

end
-- ==== Proof.Net.lean ====
/-
  The whole network as functions of whole arrays, in the two spellings the two programs use.

  Both programs aggregate neighbour features the same way, operation for operation: the edge list's first row gives
  the source node of each edge (a negative index wrapped once by the node count), its second row the target; the
  source rows are gathered and scatter-added into a zero array at the targets.  That aggregate is taken here as ONE
  function `agg` of the features and the edge list and never opened.

  A layer then combines the aggregate `A`, the features `X`, two weight matrices and a bias vector.  The host spells it
  `max ((A · Wr + b) + X · Wo, 0)` with the bias broadcast over the rows (`hostLayer`); the kernels compute
  `max ((A · Wr + X · Wo) + b, 0)` with the bias reshaped to one row (`Conv.conv`).  Over the extended reals the two are
  equal entry by entry, by commutativity and associativity of addition alone.  The head is `max (H · W1 + b1, 0) · W2 + b2`
  in both.  So the three hidden states and the output agree, layer by layer.
-/
import proofs.«176941_j81990925680800_2_alg».proof.ReferenceIdeal
import proofs.«176941_j81990925680800_2_alg».proof.Proof.Gen.ReferenceIdeal
import proofs.«176941_j81990925680800_2_alg».proof.Proof.LibLayerOps
import proofs.«176941_j81990925680800_2_alg».proof.Proof.Conv

noncomputable section

namespace Cert.Net

open Idealize.ShloMosaic Idealize.ShloMosaic.ValueIdx Cert.ReferenceIdeal Cert.ReferenceIdeal.Facts₀ Cert.GCN Cert.Layers Cert.Conv Cert.HostLayers

/-! ## The aggregate, as both programs spell it -/

/-- The source node of each edge. -/
def src (ei : Vec Ideal S2x3200000 .i32) : Vec Ideal S3200000 .i32 :=
  shapeCast S3200000 (extractStridedSlice S1x3200000 ![0, 0] ei slices_S2x3200000_S1x3200000_0_0) shapeCasts_S1x3200000_S3200000

/-- The target node of each edge. -/
def dst (ei : Vec Ideal S2x3200000 .i32) : Vec Ideal S3200000 .i32 :=
  shapeCast S3200000 (extractStridedSlice S1x3200000 ![1, 0] ei slices_S2x3200000_S1x3200000_1_0) shapeCasts_S1x3200000_S3200000

/-- The source indices as a column, a negative one wrapped once by the node count. -/
def srcCol (ei : Vec Ideal S2x3200000 .i32) : Vec Ideal S3200000x1 .i32 :=
  broadcastInDim S3200000x1 ![0] bcast_S3200000_S3200000x1_0
    (select (cmpi .slt (src ei) (broadcastInDim S3200000 ![] bcast_S_S3200000 (constantI S_ 32 0#32)))
      (addi (src ei) (broadcastInDim S3200000 ![] bcast_S_S3200000 (constantI S_ 32 100000#32))) (src ei))

/-- The target indices as a column. -/
def dstCol (ei : Vec Ideal S2x3200000 .i32) : Vec Ideal S3200000x1 .i32 :=
  broadcastInDim S3200000x1 ![0] bcast_S3200000_S3200000x1_0 (dst ei)

/-- The neighbours' features summed at each node, two features per node. -/
def agg2 (x : FVec Ideal S100000x2 .f32) (ei : Vec Ideal S2x3200000 .i32) : FVec Ideal S100000x2 .f32 :=
  Host.scatterAdd scatter_S100000x2_S3200000x1_S3200000x2_1_0_0_1
    (broadcastInDim S100000x2 ![] bcast_S_S100000x2 (constant S_ .f32 0x00000000#32)) (dstCol ei)
    (Host.gather gather_S100000x2_S3200000x1_S3200000x2_1_0_n_n_0_1_12 x (srcCol ei))

/-- The neighbours' features summed at each node, sixteen features per node. -/
def agg16 (h : FVec Ideal S100000x16 .f32) (ei : Vec Ideal S2x3200000 .i32) : FVec Ideal S100000x16 .f32 :=
  Host.scatterAdd scatter_S100000x16_S3200000x1_S3200000x16_1_0_0_1
    (broadcastInDim S100000x16 ![] bcast_S_S100000x16 (constant S_ .f32 0x00000000#32)) (dstCol ei)
    (Host.gather gather_S100000x16_S3200000x1_S3200000x16_1_0_n_n_0_1_116 h (srcCol ei))

/-! ## The host's spelling of a layer and of the head -/

/-- A layer from two input features, as the host computes it. -/
def hostLayer2 (A X : FVec Ideal S100000x2 .f32) (Wr : FVec Ideal S2x16 .f32) (b : FVec Ideal S16 .f32)
    (Wo : FVec Ideal S2x16 .f32) : FVec Ideal S100000x16 .f32 :=
  maximumf (addf (addf (Host.dotGeneral dot_S100000x2_S2x16_S100000x16_1_0_0_1_n_n none A Wr)
      (broadcastInDim S100000x16 ![0, 1] bcast_S1x16_S100000x16_0_1 (broadcastInDim S1x16 ![1] bcast_S16_S1x16_1 b)))
      (Host.dotGeneral dot_S100000x2_S2x16_S100000x16_1_0_0_1_n_n none X Wo))
    (broadcastInDim S100000x16 ![] bcast_S_S100000x16 (constant S_ .f32 0x00000000#32))

/-- A layer from sixteen input features, as the host computes it. -/
def hostLayer16 (A X : FVec Ideal S100000x16 .f32) (Wr : FVec Ideal S16x16 .f32) (b : FVec Ideal S16 .f32)
    (Wo : FVec Ideal S16x16 .f32) : FVec Ideal S100000x16 .f32 :=
  maximumf (addf (addf (Host.dotGeneral dot_S100000x16_S16x16_S100000x16_1_0_0_1_n_n none A Wr)
      (broadcastInDim S100000x16 ![0, 1] bcast_S1x16_S100000x16_0_1 (broadcastInDim S1x16 ![1] bcast_S16_S1x16_1 b)))
      (Host.dotGeneral dot_S100000x16_S16x16_S100000x16_1_0_0_1_n_n none X Wo))
    (broadcastInDim S100000x16 ![] bcast_S_S100000x16 (constant S_ .f32 0x00000000#32))

/-- The head, as the host computes it. -/
def hostHead (H : FVec Ideal S100000x16 .f32) (W1 : FVec Ideal S16x16 .f32) (b1 : FVec Ideal S16 .f32)
    (W2 : FVec Ideal S16x1 .f32) (b2 : FVec Ideal S1 .f32) : FVec Ideal S100000x1 .f32 :=
  addf (Host.dotGeneral dot_S100000x16_S16x1_S100000x1_1_0_0_1_n_n none
      (maximumf (addf (Host.dotGeneral dot_S100000x16_S16x16_S100000x16_1_0_0_1_n_n none H W1)
          (broadcastInDim S100000x16 ![0, 1] bcast_S1x16_S100000x16_0_1 (broadcastInDim S1x16 ![1] bcast_S16_S1x16_1 b1)))
        (broadcastInDim S100000x16 ![] bcast_S_S100000x16 (constant S_ .f32 0x00000000#32))) W2)
    (broadcastInDim S100000x1 ![0, 1] bcast_S1x1_S100000x1_0_1 (broadcastInDim S1x1 ![1] bcast_S1_S1x1_1 b2))

theorem hostLayer2_eq (A X : FVec Ideal S100000x2 .f32) (Wr : FVec Ideal S2x16 .f32) (b : FVec Ideal S16 .f32)
    (Wo : FVec Ideal S2x16 .f32) :
    (hostLayer2 A X Wr b Wo : Arr 100000 16) = convBiasFirst (A : Arr 100000 2) X Wr (asRow b) Wo := by
  unfold hostLayer2
  refine (host_relu _ _).trans (congrArg relu ?_)
  funext i
  exact congrArg₂ (· + ·)
    (((congrFun (host_addRow _ b _ _) i)).trans (congrArg (addRow · (asRow b) i) (hostDot_plain _ rfl none A Wr)))
    (congrFun (hostDot_plain _ rfl none X Wo) i)

theorem hostLayer16_eq (A X : FVec Ideal S100000x16 .f32) (Wr : FVec Ideal S16x16 .f32) (b : FVec Ideal S16 .f32)
    (Wo : FVec Ideal S16x16 .f32) :
    (hostLayer16 A X Wr b Wo : Arr 100000 16) = convBiasFirst (A : Arr 100000 16) X Wr (asRow b) Wo := by
  unfold hostLayer16
  refine (host_relu _ _).trans (congrArg relu ?_)
  funext i
  exact congrArg₂ (· + ·)
    (((congrFun (host_addRow _ b _ _) i)).trans (congrArg (addRow · (asRow b) i) (hostDot_plain _ rfl none A Wr)))
    (congrFun (hostDot_plain _ rfl none X Wo) i)

theorem hostHead_eq (H : FVec Ideal S100000x16 .f32) (W1 : FVec Ideal S16x16 .f32) (b1 : FVec Ideal S16 .f32)
    (W2 : FVec Ideal S16x1 .f32) (b2 : FVec Ideal S1 .f32) :
    (hostHead H W1 b1 W2 b2 : Arr 100000 1) = head (H : Arr 100000 16) W1 (asRow b1) W2 (asRow b2) := by
  unfold hostHead
  refine (host_addRow _ b2 _ _).trans (congrArg (addRow · (asRow b2)) ?_)
  refine (hostDot_plain _ rfl none _ W2).trans (congrArg (mm · W2) ?_)
  refine (host_relu _ _).trans (congrArg relu ?_)
  refine (host_addRow _ b1 _ _).trans (congrArg (addRow · (asRow b1)) ?_)
  exact hostDot_plain _ rfl none H W1

/-! ## The network, in the host's spelling and in the kernels' -/

section Network

variable (x : FVec Ideal S100000x2 .f32) (ei : Vec Ideal S2x3200000 .i32)
  (w1r : FVec Ideal S2x16 .f32) (b1 : FVec Ideal S16 .f32) (w1o : FVec Ideal S2x16 .f32)
  (w2r : FVec Ideal S16x16 .f32) (b2 : FVec Ideal S16 .f32) (w2o : FVec Ideal S16x16 .f32)
  (w3r : FVec Ideal S16x16 .f32) (b3 : FVec Ideal S16 .f32) (w3o : FVec Ideal S16x16 .f32)
  (wm1 : FVec Ideal S16x16 .f32) (bm1 : FVec Ideal S16 .f32) (wm2 : FVec Ideal S16x1 .f32) (bm2 : FVec Ideal S1 .f32)

/-- The hidden states and the output, as the host computes them. -/
def hostH1 : FVec Ideal S100000x16 .f32 := hostLayer2 (agg2 x ei) x w1r b1 w1o
def hostH2 : FVec Ideal S100000x16 .f32 := hostLayer16 (agg16 (hostH1 x ei w1r b1 w1o) ei) (hostH1 x ei w1r b1 w1o) w2r b2 w2o
def hostH3 : FVec Ideal S100000x16 .f32 :=
  hostLayer16 (agg16 (hostH2 x ei w1r b1 w1o w2r b2 w2o) ei) (hostH2 x ei w1r b1 w1o w2r b2 w2o) w3r b3 w3o
def hostQ : FVec Ideal S100000x1 .f32 := hostHead (hostH3 x ei w1r b1 w1o w2r b2 w2o w3r b3 w3o) wm1 bm1 wm2 bm2

/-- The hidden states and the output, as the kernels compute them from the same aggregates; each bias comes as a
    one-row array. -/
def kerH1 (r1 : FVec Ideal S1x16 .f32) : FVec Ideal S100000x16 .f32 := conv (agg2 x ei : Arr 100000 2) x w1r r1 w1o
def kerH2 (r1 r2 : FVec Ideal S1x16 .f32) : FVec Ideal S100000x16 .f32 :=
  conv (agg16 (kerH1 x ei w1r w1o r1) ei : Arr 100000 16) (kerH1 x ei w1r w1o r1) w2r r2 w2o
def kerH3 (r1 r2 r3 : FVec Ideal S1x16 .f32) : FVec Ideal S100000x16 .f32 :=
  conv (agg16 (kerH2 x ei w1r w1o w2r w2o r1 r2) ei : Arr 100000 16) (kerH2 x ei w1r w1o w2r w2o r1 r2) w3r r3 w3o
def kerQ (r1 r2 r3 rm1 : FVec Ideal S1x16 .f32) (rm2 : FVec Ideal S1x1 .f32) : FVec Ideal S100000x1 .f32 :=
  head (kerH3 x ei w1r w1o w2r w2o w3r w3o r1 r2 r3 : Arr 100000 16) wm1 rm1 wm2 rm2

variable (r1 r2 r3 rm1 : FVec Ideal S1x16 .f32) (rm2 : FVec Ideal S1x1 .f32)

/-- When the one-row arrays are the bias vectors laid out as rows, the kernels' states are the host's. -/
theorem kerH1_eq (h1 : (r1 : Arr 1 16) = asRow b1) : kerH1 x ei w1r w1o r1 = hostH1 x ei w1r b1 w1o := by
  unfold kerH1 hostH1
  rw [h1, conv_eq_convBiasFirst]
  exact (hostLayer2_eq _ _ _ _ _).symm

theorem kerH2_eq (h1 : (r1 : Arr 1 16) = asRow b1) (h2 : (r2 : Arr 1 16) = asRow b2) :
    kerH2 x ei w1r w1o w2r w2o r1 r2 = hostH2 x ei w1r b1 w1o w2r b2 w2o := by
  unfold kerH2 hostH2
  rw [kerH1_eq x ei w1r b1 w1o r1 h1, h2, conv_eq_convBiasFirst]
  exact (hostLayer16_eq _ _ _ _ _).symm

theorem kerH3_eq (h1 : (r1 : Arr 1 16) = asRow b1) (h2 : (r2 : Arr 1 16) = asRow b2) (h3 : (r3 : Arr 1 16) = asRow b3) :
    kerH3 x ei w1r w1o w2r w2o w3r w3o r1 r2 r3 = hostH3 x ei w1r b1 w1o w2r b2 w2o w3r b3 w3o := by
  unfold kerH3 hostH3
  rw [kerH2_eq x ei w1r b1 w1o w2r b2 w2o r1 r2 h1 h2, h3, conv_eq_convBiasFirst]
  exact (hostLayer16_eq _ _ _ _ _).symm

theorem kerQ_eq (h1 : (r1 : Arr 1 16) = asRow b1) (h2 : (r2 : Arr 1 16) = asRow b2) (h3 : (r3 : Arr 1 16) = asRow b3)
    (hm1 : (rm1 : Arr 1 16) = asRow bm1) (hm2 : (rm2 : Arr 1 1) = asRow bm2) :
    kerQ x ei w1r w1o w2r w2o w3r w3o wm1 wm2 r1 r2 r3 rm1 rm2
      = hostQ x ei w1r b1 w1o w2r b2 w2o w3r b3 w3o wm1 bm1 wm2 bm2 := by
  unfold kerQ hostQ
  rw [kerH3_eq x ei w1r b1 w1o w2r b2 w2o w3r b3 w3o r1 r2 r3 h1 h2 h3, hm1, hm2]
  exact (hostHead_eq _ _ _ _ _).symm

end Network

end Cert.Net

end
-- ==== Proof.Line.lean ====
/-
  The kernel program as one straight line of operations, and its two results as the network's functions.

  Seen from outside, a pipelined region whose input arrays end as entered and whose one output array ends at a
  function of the entry contents is one operation on the core's buffers.  Each of the four regions is such an
  operation: a graph-convolution layer of the five arrays it reads (three times), then the head.  The contents at the
  program's return are then the fold of the host stretches and these four operations from the launch memory, and
  reading that fold at the two result buffers gives the third hidden state and the output as the network's functions
  (in the kernels' spelling) of the argument arrays.
-/
import proofs.«176941_j81990925680800_2_alg».proof.Proof.Gen.KernelIdeal.Frame
import proofs.«176941_j81990925680800_2_alg».proof.Proof.LibRegionAsOp
import proofs.«176941_j81990925680800_2_alg».proof.Proof.Region0
import proofs.«176941_j81990925680800_2_alg».proof.Proof.Region1
import proofs.«176941_j81990925680800_2_alg».proof.Proof.Region2
import proofs.«176941_j81990925680800_2_alg».proof.Proof.Region3
import proofs.«176941_j81990925680800_2_alg».proof.Proof.Net

set_option maxRecDepth 16384

noncomputable section

namespace Cert.KernelIdeal.Line

open Idealize.ShloMosaic Idealize.ShloMosaic.TcCoe Idealize.SL.Sem
open Cert.KernelIdeal Cert.KernelIdeal.Gen Cert.GCN Cert.Layers Cert.Conv

/-- Region 0 as one operation: the first layer of the aggregate, the node features, the two weight matrices and the bias row. -/
def op0 : HloOp τ sig (Elt Ideal) :=
  StableHlo.nary ![main_v13, main_arg0, main_arg2, main_v14, main_arg4] main_v15
    (fun u => conv (u 0 : Arr 100000 2) (u 1) (u 2) (u 3) (u 4))

/-- It leaves its result buffer at the function of the five operands' contents … -/
theorem op0_result (F : Valuation τ sig (Elt Ideal)) :
    op0.result F (Proc.devRef .tc main_v15)
      = conv (F (Proc.devRef .tc main_v13) : Arr 100000 2) (F (Proc.devRef .tc main_arg0)) (F (Proc.devRef .tc main_arg2))
          (F (Proc.devRef .tc main_v14)) (F (Proc.devRef .tc main_arg4)) := by
  unfold op0
  rw [StableHlo.nary_result]
  rfl

/-- … and every other buffer as it was. -/
theorem op0_result_ne (F : Valuation τ sig (Elt Ideal)) {r : Ref sig .tc} (h : r ≠ main_v15) :
    op0.result F (Proc.devRef .tc r) = F (Proc.devRef .tc r) := by
  unfold op0
  exact StableHlo.nary_result_ne _ _ _ _ _ F h

theorem op0_result' (F : Valuation τ sig (Elt Ideal)) :
    op0.result F (no_index (Proc.devRef .tc main_v15))
      = conv (F (Proc.devRef .tc main_v13) : Arr 100000 2) (F (Proc.devRef .tc main_arg0)) (F (Proc.devRef .tc main_arg2))
          (F (Proc.devRef .tc main_v14)) (F (Proc.devRef .tc main_arg4)) := op0_result F

theorem op0_result_ne' (F : Valuation τ sig (Elt Ideal)) {r : Ref sig .tc} (h : r ≠ main_v15) :
    op0.result F (no_index (Proc.devRef .tc r)) = F (Proc.devRef .tc r) := op0_result_ne F h

theorem op0_writes : op0.writes = {Proc.devRef (τ := τ) .tc main_v15} := rfl

/-- Region 1 as one operation: the second layer. -/
def op1 : HloOp τ sig (Elt Ideal) :=
  StableHlo.nary ![main_v25, main_v15, main_arg5, main_v26, main_arg7] main_v27
    (fun u => conv (u 0 : Arr 100000 16) (u 1) (u 2) (u 3) (u 4))

/-- It leaves its result buffer at the function of the five operands' contents … -/
theorem op1_result (F : Valuation τ sig (Elt Ideal)) :
    op1.result F (Proc.devRef .tc main_v27)
      = conv (F (Proc.devRef .tc main_v25) : Arr 100000 16) (F (Proc.devRef .tc main_v15)) (F (Proc.devRef .tc main_arg5))
          (F (Proc.devRef .tc main_v26)) (F (Proc.devRef .tc main_arg7)) := by
  unfold op1
  rw [StableHlo.nary_result]
  rfl

/-- … and every other buffer as it was. -/
theorem op1_result_ne (F : Valuation τ sig (Elt Ideal)) {r : Ref sig .tc} (h : r ≠ main_v27) :
    op1.result F (Proc.devRef .tc r) = F (Proc.devRef .tc r) := by
  unfold op1
  exact StableHlo.nary_result_ne _ _ _ _ _ F h

theorem op1_result' (F : Valuation τ sig (Elt Ideal)) :
    op1.result F (no_index (Proc.devRef .tc main_v27))
      = conv (F (Proc.devRef .tc main_v25) : Arr 100000 16) (F (Proc.devRef .tc main_v15)) (F (Proc.devRef .tc main_arg5))
          (F (Proc.devRef .tc main_v26)) (F (Proc.devRef .tc main_arg7)) := op1_result F

theorem op1_result_ne' (F : Valuation τ sig (Elt Ideal)) {r : Ref sig .tc} (h : r ≠ main_v27) :
    op1.result F (no_index (Proc.devRef .tc r)) = F (Proc.devRef .tc r) := op1_result_ne F h

theorem op1_writes : op1.writes = {Proc.devRef (τ := τ) .tc main_v27} := rfl

/-- Region 2 as one operation: the third layer. -/
def op2 : HloOp τ sig (Elt Ideal) :=
  StableHlo.nary ![main_v37, main_v27, main_arg8, main_v38, main_arg10] main_v39
    (fun u => conv (u 0 : Arr 100000 16) (u 1) (u 2) (u 3) (u 4))

/-- It leaves its result buffer at the function of the five operands' contents … -/
theorem op2_result (F : Valuation τ sig (Elt Ideal)) :
    op2.result F (Proc.devRef .tc main_v39)
      = conv (F (Proc.devRef .tc main_v37) : Arr 100000 16) (F (Proc.devRef .tc main_v27)) (F (Proc.devRef .tc main_arg8))
          (F (Proc.devRef .tc main_v38)) (F (Proc.devRef .tc main_arg10)) := by
  unfold op2
  rw [StableHlo.nary_result]
  rfl

/-- … and every other buffer as it was. -/
theorem op2_result_ne (F : Valuation τ sig (Elt Ideal)) {r : Ref sig .tc} (h : r ≠ main_v39) :
    op2.result F (Proc.devRef .tc r) = F (Proc.devRef .tc r) := by
  unfold op2
  exact StableHlo.nary_result_ne _ _ _ _ _ F h

theorem op2_result' (F : Valuation τ sig (Elt Ideal)) :
    op2.result F (no_index (Proc.devRef .tc main_v39))
      = conv (F (Proc.devRef .tc main_v37) : Arr 100000 16) (F (Proc.devRef .tc main_v27)) (F (Proc.devRef .tc main_arg8))
          (F (Proc.devRef .tc main_v38)) (F (Proc.devRef .tc main_arg10)) := op2_result F

theorem op2_result_ne' (F : Valuation τ sig (Elt Ideal)) {r : Ref sig .tc} (h : r ≠ main_v39) :
    op2.result F (no_index (Proc.devRef .tc r)) = F (Proc.devRef .tc r) := op2_result_ne F h

theorem op2_writes : op2.writes = {Proc.devRef (τ := τ) .tc main_v39} := rfl

/-- Region 3 as one operation: the head. -/
def op3 : HloOp τ sig (Elt Ideal) :=
  StableHlo.nary ![main_v39, main_arg11, main_v40, main_arg13, main_v41] main_v42
    (fun u => head (u 0 : Arr 100000 16) (u 1) (u 2) (u 3) (u 4))

/-- It leaves its result buffer at the function of the five operands' contents … -/
theorem op3_result (F : Valuation τ sig (Elt Ideal)) :
    op3.result F (Proc.devRef .tc main_v42)
      = head (F (Proc.devRef .tc main_v39) : Arr 100000 16) (F (Proc.devRef .tc main_arg11)) (F (Proc.devRef .tc main_v40))
          (F (Proc.devRef .tc main_arg13)) (F (Proc.devRef .tc main_v41)) := by
  unfold op3
  rw [StableHlo.nary_result]
  rfl

/-- … and every other buffer as it was. -/
theorem op3_result_ne (F : Valuation τ sig (Elt Ideal)) {r : Ref sig .tc} (h : r ≠ main_v42) :
    op3.result F (Proc.devRef .tc r) = F (Proc.devRef .tc r) := by
  unfold op3
  exact StableHlo.nary_result_ne _ _ _ _ _ F h

theorem op3_result' (F : Valuation τ sig (Elt Ideal)) :
    op3.result F (no_index (Proc.devRef .tc main_v42))
      = head (F (Proc.devRef .tc main_v39) : Arr 100000 16) (F (Proc.devRef .tc main_arg11)) (F (Proc.devRef .tc main_v40))
          (F (Proc.devRef .tc main_arg13)) (F (Proc.devRef .tc main_v41)) := op3_result F

theorem op3_result_ne' (F : Valuation τ sig (Elt Ideal)) {r : Ref sig .tc} (h : r ≠ main_v42) :
    op3.result F (no_index (Proc.devRef .tc r)) = F (Proc.devRef .tc r) := op3_result_ne F h

theorem op3_writes : op3.writes = {Proc.devRef (τ := τ) .tc main_v42} := rfl

variable (m : (ℓ : Loc nD τ sig) → Buf (Elt Ideal) ℓ) (ρ : Dev nD → PrngReg)

/-- Region 0 takes the contents at its entry to `op0`'s result of them. -/
theorem W2_eq (c : Dev nD) : W2 m ρ c = op0.result (StableHlo.after hostOps0 (W0 m ρ c)) := by
  unfold W2
  exact Cert.Lib.withArrays_eq_result spec0 launch0.win.arr_inj c _ _ op0 5 op0_writes
    ((Region0.final (V1 m ρ) c).trans (op0_result _).symm)
    (fun w hw => Region0.kept (V1 m ρ) c w hw)

/-- Region 1 takes the contents at its entry to `op1`'s result of them. -/
theorem W4_eq (c : Dev nD) : W4 m ρ c = op1.result (StableHlo.after hostOps1 (W2 m ρ c)) := by
  unfold W4
  exact Cert.Lib.withArrays_eq_result spec1 launch1.win.arr_inj c _ _ op1 5 op1_writes
    ((Region1.final (V3 m ρ) c).trans (op1_result _).symm)
    (fun w hw => Region1.kept (V3 m ρ) c w hw)

/-- Region 2 takes the contents at its entry to `op2`'s result of them. -/
theorem W6_eq (c : Dev nD) : W6 m ρ c = op2.result (StableHlo.after hostOps2 (W4 m ρ c)) := by
  unfold W6
  exact Cert.Lib.withArrays_eq_result spec2 launch2.win.arr_inj c _ _ op2 5 op2_writes
    ((Region2.final (V5 m ρ) c).trans (op2_result _).symm)
    (fun w hw => Region2.kept (V5 m ρ) c w hw)

/-- Region 3 takes the contents at its entry to `op3`'s result of them. -/
theorem W8_eq (c : Dev nD) : W8 m ρ c = op3.result (StableHlo.after hostOps3 (W6 m ρ c)) := by
  unfold W8
  exact Cert.Lib.withArrays_eq_result spec3 launch3.win.arr_inj c _ _ op3 5 op3_writes
    ((Region3.final (V7 m ρ) c).trans (op3_result _).symm)
    (fun w hw => Region3.kept (V7 m ρ) c w hw)

/-- The contents at the return: the fold of the four host stretches and the four region operations from the launch
    contents. -/
theorem W8_line (c : Dev nD) : W8 m ρ c = op3.result (StableHlo.after hostOps3 (op2.result (StableHlo.after hostOps2
    (op1.result (StableHlo.after hostOps1 (op0.result (StableHlo.after hostOps0 (W0 m ρ c)))))))) := by
  rw [W8_eq, W6_eq, W4_eq, W2_eq]

/-- A bias vector as a kernel takes it: reshaped to one row. -/
def row16 (b : FVec Ideal S16 .f32) : FVec Ideal S1x16 .f32 := shapeCast S1x16 b Facts₀.shapeCasts_S16_S1x16
def row1 (b : FVec Ideal S1 .f32) : FVec Ideal S1x1 .f32 := shapeCast S1x1 b Facts₀.shapeCasts_S1_S1x1

/-- Reading a fold of operations at a buffer: each operation's result at its own result buffer is its function's
    value of the operands' contents, and at any other buffer what was there. -/
macro "line_results" : tactic =>
  `(tactic| (simp (disch := decide) only [StableHlo.after_cons, StableHlo.after_nil,
      StableHlo.nullary_result', StableHlo.unary_result', StableHlo.binary_result', StableHlo.ternary_result',
      StableHlo.reshape_result', op0_result', op1_result', op2_result', op3_result',
      StableHlo.nullary_result_ne', StableHlo.unary_result_ne', StableHlo.binary_result_ne', StableHlo.ternary_result_ne',
      StableHlo.reshape_result_ne', op0_result_ne', op1_result_ne', op2_result_ne', op3_result_ne']))

set_option maxHeartbeats 4000000 in
/-- THE FIRST RESULT at the return: the third hidden state, in the kernels' spelling, of the argument arrays. -/
theorem v39_eq (c : Dev nD) : W8 m ρ c (Proc.devRef .tc main_v39)
    = Cert.Net.kerH3 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg10))
        (row16 (m ((c.tc : Thread nD τ).loc main_arg3))) (row16 (m ((c.tc : Thread nD τ).loc main_arg6)))
        (row16 (m ((c.tc : Thread nD τ).loc main_arg9))) := by
  rw [W8_line]
  line_results
  rfl

set_option maxHeartbeats 4000000 in
/-- THE SECOND RESULT at the return: the output, in the kernels' spelling, of the argument arrays. -/
theorem v42_eq (c : Dev nD) : W8 m ρ c (Proc.devRef .tc main_v42)
    = Cert.Net.kerQ (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg10)) (m ((c.tc : Thread nD τ).loc main_arg11)) (m ((c.tc : Thread nD τ).loc main_arg13))
        (row16 (m ((c.tc : Thread nD τ).loc main_arg3))) (row16 (m ((c.tc : Thread nD τ).loc main_arg6)))
        (row16 (m ((c.tc : Thread nD τ).loc main_arg9))) (row16 (m ((c.tc : Thread nD τ).loc main_arg12)))
        (row1 (m ((c.tc : Thread nD τ).loc main_arg14))) := by
  rw [W8_line]
  line_results
  rfl

end Cert.KernelIdeal.Line

end
-- ==== Proof.RefValue.lean ====
/-
  The reference program's two results as the network's functions, in the host's spelling.

  The reference's run ends with each result buffer at the composed term of its operations applied to the argument
  arrays.  That term, read with the aggregate taken as one function and each layer as one function, is the third
  hidden state and the output of `Net`: the same operations in the same order, only named.
-/
import proofs.«176941_j81990925680800_2_alg».proof.Proof.Gen.ReferenceIdeal.Run
import proofs.«176941_j81990925680800_2_alg».proof.Proof.Net

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value Cert.Net

variable (m : (ℓ : Loc nD τ sig) → Buf (Elt Ideal) ℓ)

set_option maxHeartbeats 4000000 in
/-- The first result is the third hidden state. -/
theorem out0_eq (c : Dev nD) : res_out0 (F := Ideal) m c
    = hostH3 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) := by
  show res_main_v54 m c = _
  unfold res_main_v54
  rfl

set_option maxHeartbeats 4000000 in
/-- The second result is the output. -/
theorem out1_eq (c : Dev nD) : res_out1 (F := Ideal) m c
    = hostQ (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13))
        (m ((c.tc : Thread nD τ).loc main_arg14)) := by
  show res_main_v63 m c = _
  unfold res_main_v63
  rfl

end Cert.ReferenceIdeal.RefValue

end
-- ==== Proof.Results.lean ====
/-
  Both programs' runs, each with its two results stated as the network's functions (in the host's spelling) of the
  program's own argument arrays.

  The kernel program: its run ends with the result buffers at the last boundary's contents; those are the network in
  the kernels' spelling (the program read as a line of operations), which is the network in the host's spelling layer
  by layer, a bias reshaped to one row being the bias as a row.  The reference: its run ends with the result buffers
  at its operations' composed term, which is the network in the host's spelling with the layers named.
-/
import proofs.«176941_j81990925680800_2_alg».proof.Proof.ValueRun
import proofs.«176941_j81990925680800_2_alg».proof.Proof.Line
import proofs.«176941_j81990925680800_2_alg».proof.Proof.RefValue
import proofs.«176941_j81990925680800_2_alg».proof.Proof.Net

set_option maxRecDepth 16384

noncomputable section

namespace Cert.Results

open Idealize.ShloMosaic Idealize.ShloMosaic.TcCoe Idealize.SL.Sem

section Kernel

variable (m : (ℓ : Loc Cert.KernelIdeal.nD Cert.KernelIdeal.τ Cert.KernelIdeal.sig) → Buf (Elt Ideal) ℓ)
  (ρ : Dev Cert.KernelIdeal.nD → PrngReg)

/-- The kernel program's first result buffer ends at the third hidden state of its arguments. -/
theorem kernel_h3 (c : Dev Cert.KernelIdeal.nD) :
    Cert.KernelIdeal.Gen.W8 m ρ c (Proc.devRef .tc Cert.KernelIdeal.main_v39) = Cert.Net.hostH3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) :=
  (Cert.KernelIdeal.Line.v39_eq m ρ c).trans
    (Cert.Net.kerH3_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (Cert.KernelIdeal.Line.row16 (m ((c.tc : Thread Cert.KernelIdeal.nD Cert.KernelIdeal.τ).loc Cert.KernelIdeal.main_arg3))) (Cert.KernelIdeal.Line.row16 (m ((c.tc : Thread Cert.KernelIdeal.nD Cert.KernelIdeal.τ).loc Cert.KernelIdeal.main_arg6))) (Cert.KernelIdeal.Line.row16 (m ((c.tc : Thread Cert.KernelIdeal.nD Cert.KernelIdeal.τ).loc Cert.KernelIdeal.main_arg9)))
      (Cert.HostLayers.reshape_asRow _ _) (Cert.HostLayers.reshape_asRow _ _) (Cert.HostLayers.reshape_asRow _ _))

/-- The kernel program's second result buffer ends at the output of its arguments. -/
theorem kernel_q (c : Dev Cert.KernelIdeal.nD) :
    Cert.KernelIdeal.Gen.W8 m ρ c (Proc.devRef .tc Cert.KernelIdeal.main_v42) = Cert.Net.hostQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) :=
  (Cert.KernelIdeal.Line.v42_eq m ρ c).trans
    (Cert.Net.kerQ_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      (Cert.KernelIdeal.Line.row16 (m ((c.tc : Thread Cert.KernelIdeal.nD Cert.KernelIdeal.τ).loc Cert.KernelIdeal.main_arg3))) (Cert.KernelIdeal.Line.row16 (m ((c.tc : Thread Cert.KernelIdeal.nD Cert.KernelIdeal.τ).loc Cert.KernelIdeal.main_arg6))) (Cert.KernelIdeal.Line.row16 (m ((c.tc : Thread Cert.KernelIdeal.nD Cert.KernelIdeal.τ).loc Cert.KernelIdeal.main_arg9)))
      (Cert.KernelIdeal.Line.row16 (m ((c.tc : Thread Cert.KernelIdeal.nD Cert.KernelIdeal.τ).loc Cert.KernelIdeal.main_arg12))) (Cert.KernelIdeal.Line.row1 (m ((c.tc : Thread Cert.KernelIdeal.nD Cert.KernelIdeal.τ).loc Cert.KernelIdeal.main_arg14)))
      (Cert.HostLayers.reshape_asRow _ _) (Cert.HostLayers.reshape_asRow _ _) (Cert.HostLayers.reshape_asRow _ _)
      (Cert.HostLayers.reshape_asRow _ _) (Cert.HostLayers.reshape_asRow _ _))

/-- The kernel program's run, its results the network's functions of its arguments. -/
theorem kernel_run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v39) = Cert.Net.hostH3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_v42) = Cert.Net.hostQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run Cert.KernelIdeal.defs _ _).mono
    (fun r h c => ⟨(h c).1.trans (kernel_h3 m ρ c), (h c).2.1.trans (kernel_q m ρ c), (h c).2.2⟩)
    (Cert.KernelIdeal.ValueRun.run (F := Ideal) m ρ)

end Kernel

section Reference

variable (m : (ℓ : Loc Cert.ReferenceIdeal.nD Cert.ReferenceIdeal.τ Cert.ReferenceIdeal.sig) → Buf (Elt Ideal) ℓ)
  (ρ : Dev Cert.ReferenceIdeal.nD → PrngReg)

/-- The reference's run, its results the network's functions of its arguments. -/
theorem reference_run : θ_run (Cert.ReferenceIdeal.defs (F := Ideal)) (onTc (τ := Cert.ReferenceIdeal.τ) (Cert.ReferenceIdeal.main (F := Ideal))) ⟨m, fun _ => 0, ρ⟩
    (fun r => ∀ c : Dev Cert.ReferenceIdeal.nD,
      r.2.mem ((c.tc : Thread Cert.ReferenceIdeal.nD Cert.ReferenceIdeal.τ).loc Cert.ReferenceIdeal.main_v54) = Cert.Net.hostH3 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_v63) = Cert.Net.hostQ (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)) :=
  (θ_run Cert.ReferenceIdeal.defs _ _).mono
    (fun r h c => ⟨(h c).1.trans (Cert.ReferenceIdeal.RefValue.out0_eq m c), (h c).2.1.trans (Cert.ReferenceIdeal.RefValue.out1_eq m c), (h c).2.2⟩)
    (Cert.ReferenceIdeal.Value.run (F := Ideal) m ρ)

end Reference

/-! ## The network at equal arguments -/

section Congr

open Cert.ReferenceIdeal

variable {x x' : FVec Ideal S100000x2 .f32} {ei ei' : Vec Ideal S2x3200000 .i32}
  {w1r w1r' : FVec Ideal S2x16 .f32} {b1 b1' : FVec Ideal S16 .f32} {w1o w1o' : FVec Ideal S2x16 .f32}
  {w2r w2r' : FVec Ideal S16x16 .f32} {b2 b2' : FVec Ideal S16 .f32} {w2o w2o' : FVec Ideal S16x16 .f32}
  {w3r w3r' : FVec Ideal S16x16 .f32} {b3 b3' : FVec Ideal S16 .f32} {w3o w3o' : FVec Ideal S16x16 .f32}
  {wm1 wm1' : FVec Ideal S16x16 .f32} {bm1 bm1' : FVec Ideal S16 .f32} {wm2 wm2' : FVec Ideal S16x1 .f32} {bm2 bm2' : FVec Ideal S1 .f32}

theorem hostH3_congr (a0 : x' = x) (a1 : ei' = ei) (a2 : w1r' = w1r) (a3 : b1' = b1) (a4 : w1o' = w1o) (a5 : w2r' = w2r)
    (a6 : b2' = b2) (a7 : w2o' = w2o) (a8 : w3r' = w3r) (a9 : b3' = b3) (a10 : w3o' = w3o) :
    Cert.Net.hostH3 x' ei' w1r' b1' w1o' w2r' b2' w2o' w3r' b3' w3o' = Cert.Net.hostH3 x ei w1r b1 w1o w2r b2 w2o w3r b3 w3o := by
  subst a0 a1 a2 a3 a4 a5 a6 a7 a8 a9 a10; rfl

theorem hostQ_congr (a0 : x' = x) (a1 : ei' = ei) (a2 : w1r' = w1r) (a3 : b1' = b1) (a4 : w1o' = w1o) (a5 : w2r' = w2r)
    (a6 : b2' = b2) (a7 : w2o' = w2o) (a8 : w3r' = w3r) (a9 : b3' = b3) (a10 : w3o' = w3o)
    (a11 : wm1' = wm1) (a12 : bm1' = bm1) (a13 : wm2' = wm2) (a14 : bm2' = bm2) :
    Cert.Net.hostQ x' ei' w1r' b1' w1o' w2r' b2' w2o' w3r' b3' w3o' wm1' bm1' wm2' bm2'
      = Cert.Net.hostQ x ei w1r b1 w1o w2r b2 w2o w3r b3 w3o wm1 bm1 wm2 bm2 := by
  subst a0 a1 a2 a3 a4 a5 a6 a7 a8 a9 a10 a11 a12 a13 a14; rfl

end Congr

end Cert.Results

end
-- ==== Proof.lean ====
/-
  A three-layer graph-convolution network with a two-layer head, computed by four row-blocked kernels, against the same
  network written with plain matrix products.

  Each layer aggregates the neighbours' features over the edge list (a gather of source rows, scatter-added at the
  target nodes — the same host operations in both programs), then combines the aggregate `A`, the node's own
  features `X`, two weight matrices and a bias.  The kernels compute `max ((A · Wr + X · Wo) + b, 0)` on blocks of 5000
  rows with operands narrowed to a shorter float format before each product; the reference computes
  `max ((A · Wr + b) + X · Wo, 0)` on whole arrays.  At the ideal values a change of format is the identity, a matrix
  product into a zero accumulator is the plain product, a row-blocked result is the whole-array function because
  every operation is row-wise, and the two orders of the three-term sum agree because addition of extended reals is
  commutative and associative — no finiteness is needed.  The head `max (H · W1 + b1, 0) · W2 + b2` is the same in
  both.  So both results, the third hidden state and the output, are equal entry by entry.

  The three frames are the generated ones (the reference's is its generated run with the results dropped); the ideal
  pass rewrote nothing, so the idealization claim is trivial.
-/
import proofs.«176941_j81990925680800_2_alg».proof.Defs
import proofs.«176941_j81990925680800_2_alg».proof.Proof.Gen.Kernel
import proofs.«176941_j81990925680800_2_alg».proof.Proof.Gen.Kernel.Skeleton
import proofs.«176941_j81990925680800_2_alg».proof.Proof.Gen.Kernel.Launch
import proofs.«176941_j81990925680800_2_alg».proof.Proof.Gen.Kernel.Points
import proofs.«176941_j81990925680800_2_alg».proof.Proof.Gen.Kernel.Frame
import proofs.«176941_j81990925680800_2_alg».proof.Proof.Gen.KernelIdeal
import proofs.«176941_j81990925680800_2_alg».proof.Proof.Gen.KernelIdeal.Skeleton
import proofs.«176941_j81990925680800_2_alg».proof.Proof.Gen.KernelIdeal.Launch
import proofs.«176941_j81990925680800_2_alg».proof.Proof.Gen.KernelIdeal.Points
import proofs.«176941_j81990925680800_2_alg».proof.Proof.Gen.KernelIdeal.Frame
import proofs.«176941_j81990925680800_2_alg».proof.Proof.Gen.ReferenceIdeal
import proofs.«176941_j81990925680800_2_alg».proof.Proof.Gen.ReferenceIdeal.Run
import proofs.«176941_j81990925680800_2_alg».proof.Proof.Gen.Pre_finite_inputs
import proofs.«176941_j81990925680800_2_alg».proof.Proof.Results
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end with the third hidden state and the output of the network of their own argument arrays
    (`Results.kernel_run`, `Results.reference_run`); the arguments agree, so the results do. -/
theorem algebraic : Cert.algebraic_KernelIdeal_ReferenceIdeal := by
  intro m ρ m' ρ' _ hagree
  refine ⟨_, _, Cert.Results.kernel_run m ρ, ?_⟩
  refine (θ_run Cert.ReferenceIdeal.defs _ _).mono (fun r h c => ?_) (Cert.Results.reference_run m' ρ')
  obtain ⟨a0, a1, a2, a3, a4, a5, a6, a7, a8, a9, a10, a11, a12, a13, a14⟩ := hagree c
  exact ⟨(h c).1.trans (Cert.Results.hostH3_congr a0 a1 a2 a3 a4 a5 a6 a7 a8 a9 a10),
    (h c).2.1.trans (Cert.Results.hostQ_congr a0 a1 a2 a3 a4 a5 a6 a7 a8 a9 a10 a11 a12 a13 a14), (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
